-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4x900x256 : Shape := ⟨4, ![16, 4, 900, 256]⟩
abbrev S_ : Shape := ⟨0, ![]⟩

class Facts : Prop where
  bcast_S_S16x4x900x256 : S_.BroadcastsInDim S16x4x900x256 (![] : Fin 0 → Fin S16x4x900x256.rank)
  reducesTo_S16x4x900x256_S_d0_1_2_3 : S16x4x900x256.ReducesTo [0, 1, 2, 3] S_
  h_S_ : 0 < S_.numel

variable [Facts]

def fn {F : FTy → Type} [FloatOps F] (main_arg0 : FVec F S16x4x900x256 .f32) (main_arg1 : FVec F S16x4x900x256 .f32) : IVec S_ 1 :=
  let main_v0 : FVec F S16x4x900x256 .f32 := Host.absf main_arg0
  let main_cst : FVec F S_ .f32 := constant S_ .f32 0x7F800000#32
  let main_v1 : FVec F S16x4x900x256 .f32 := broadcastInDim S16x4x900x256 ![] bcast_S_S16x4x900x256 main_cst
  let main_v2 : IVec S16x4x900x256 1 := cmpf .olt main_v0 main_v1
  let main_c : IVec S_ 1 := constantI S_ 1 1#1
  let main_v3 : IVec S_ 1 := (fun x v => Host.reduce IntOp.andi x v reducesTo_S16x4x900x256_S_d0_1_2_3 h_S_) main_v2 main_c
  let main_v4 : FVec F S16x4x900x256 .f32 := Host.absf main_arg1
  let main_cst_0 : FVec F S_ .f32 := constant S_ .f32 0x7F800000#32
  let main_v5 : FVec F S16x4x900x256 .f32 := broadcastInDim S16x4x900x256 ![] bcast_S_S16x4x900x256 main_cst_0
  let main_v6 : IVec S16x4x900x256 1 := cmpf .olt main_v4 main_v5
  let main_c_1 : IVec S_ 1 := constantI S_ 1 1#1
  let main_v7 : IVec S_ 1 := (fun x v => Host.reduce IntOp.andi x v reducesTo_S16x4x900x256_S_d0_1_2_3 h_S_) main_v6 main_c_1
  let main_v8 : IVec S_ 1 := andi main_v3 main_v7
  main_v8
-- ==== Kernel.lean ====
abbrev S16x4x900x256 : Shape := ⟨4, ![16, 4, 900, 256]⟩
abbrev S16x900x900 : Shape := ⟨3, ![16, 900, 900]⟩
abbrev S1x4x900x256 : Shape := ⟨4, ![1, 4, 900, 256]⟩
abbrev S1x900x900 : Shape := ⟨3, ![1, 900, 900]⟩
abbrev S900x900 : Shape := ⟨2, ![900, 900]⟩
abbrev S1x1x900x256 : Shape := ⟨4, ![1, 1, 900, 256]⟩
abbrev S900x256 : Shape := ⟨2, ![900, 256]⟩
abbrev S900 : Shape := ⟨1, ![900]⟩
abbrev S900x1 : Shape := ⟨2, ![900, 1]⟩
abbrev S1x900 : Shape := ⟨2, ![1, 900]⟩
abbrev S_ : Shape := ⟨0, ![]⟩
abbrev S900x900x1 : Shape := ⟨3, ![900, 900, 1]⟩
abbrev S900x900x2 : Shape := ⟨3, ![900, 900, 2]⟩
abbrev S16x900 : Shape := ⟨2, ![16, 900]⟩

abbrev nBuf : Space → Nat
  | .hbm => 56
  | .vmem => 6
  | .smem => 0
  | _ => 0

abbrev bufTy : (tb : Table) → Fin (tcTables nBuf tb) → BufTy
  | .hbm, ⟨0, _⟩ => ⟨S16x4x900x256, .f32⟩
  | .hbm, ⟨1, _⟩ => ⟨S16x4x900x256, .f32⟩
  | .hbm, ⟨2, _⟩ => ⟨S16x900x900, .f32⟩
  | .hbm, ⟨3, _⟩ => ⟨S900, .i32⟩
  | .hbm, ⟨4, _⟩ => ⟨S900x1, .i32⟩
  | .hbm, ⟨5, _⟩ => ⟨S900, .i32⟩
  | .hbm, ⟨6, _⟩ => ⟨S1x900, .i32⟩
  | .hbm, ⟨7, _⟩ => ⟨S900x900, .i32⟩
  | .hbm, ⟨8, _⟩ => ⟨S900x900, .i32⟩
  | .hbm, ⟨9, _⟩ => ⟨S900x900, .i32⟩
  | .hbm, ⟨10, _⟩ => ⟨S_, .i32⟩
  | .hbm, ⟨11, _⟩ => ⟨S900x900, .i32⟩
  | .hbm, ⟨12, _⟩ => ⟨S900x900, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i1⟩
  | .hbm, ⟨17, _⟩ => ⟨S_, .i32⟩
  | .hbm, ⟨18, _⟩ => ⟨S_, .i32⟩
  | .hbm, ⟨19, _⟩ => ⟨S900x900, .i32⟩
  | .hbm, ⟨20, _⟩ => ⟨S900x900, .i32⟩
  | .hbm, ⟨21, _⟩ => ⟨S_, .i32⟩
  | .hbm, ⟨22, _⟩ => ⟨S900x900, .i32⟩
  | .hbm, ⟨23, _⟩ => ⟨S900x900, .i1⟩
  | .hbm, ⟨24, _⟩ => ⟨S_, .i32⟩
  | .hbm, ⟨25, _⟩ => ⟨S900x900, .i32⟩
  | .hbm, ⟨26, _⟩ => ⟨S900x900, .i1⟩
  | .hbm, ⟨27, _⟩ => ⟨S_, .i32⟩
  | .hbm, ⟨28, _⟩ => ⟨S_, .i1⟩
  | .hbm, ⟨29, _⟩ => ⟨S900x900, .i1⟩
  | .hbm, ⟨30, _⟩ => ⟨S900x900, .i1⟩
  | .hbm, ⟨31, _⟩ => ⟨S900x900, .i1⟩
  | .hbm, ⟨32, _⟩ => ⟨S900x900, .i32⟩
  | .hbm, ⟨33, _⟩ => ⟨S900x900, .i32⟩
  | .hbm, ⟨34, _⟩ => ⟨S900x900, .i32⟩
  | .hbm, ⟨35, _⟩ => ⟨S_, .i32⟩
  | .hbm, ⟨36, _⟩ => ⟨S900x900, .i32⟩
  | .hbm, ⟨37, _⟩ => ⟨S900x900, .i1⟩
  | .hbm, ⟨38, _⟩ => ⟨S_, .i32⟩
  | .hbm, ⟨39, _⟩ => ⟨S900x900, .i32⟩
  | .hbm, ⟨40, _⟩ => ⟨S900x900, .i32⟩
  | .hbm, ⟨41, _⟩ => ⟨S900x900, .i32⟩
  | .hbm, ⟨42, _⟩ => ⟨S_, .i32⟩
  | .hbm, ⟨43, _⟩ => ⟨S1x900, .i32⟩
  | .hbm, ⟨44, _⟩ => ⟨S1x900, .i1⟩
  | .hbm, ⟨45, _⟩ => ⟨S_, .i32⟩
  | .hbm, ⟨46, _⟩ => ⟨S1x900, .i32⟩
  | .hbm, ⟨47, _⟩ => ⟨S1x900, .i32⟩
  | .hbm, ⟨48, _⟩ => ⟨S1x900, .i32⟩
  | .hbm, ⟨49, _⟩ => ⟨S900x900, .i32⟩
  | .hbm, ⟨50, _⟩ => ⟨S900x900x1, .i32⟩
  | .hbm, ⟨51, _⟩ => ⟨S900x900x1, .i32⟩
  | .hbm, ⟨52, _⟩ => ⟨S900x900x2, .i32⟩
  | .hbm, ⟨53, _⟩ => ⟨S16x900x900, .f32⟩
  | .hbm, ⟨54, _⟩ => ⟨S_, .f32⟩
  | .hbm, ⟨55, _⟩ => ⟨S16x900, .f32⟩
  | .local _ .vmem, ⟨0, _⟩ => ⟨S1x4x900x256, .f32⟩
  | .local _ .vmem, ⟨1, _⟩ => ⟨S1x4x900x256, .f32⟩
  | .local _ .vmem, ⟨2, _⟩ => ⟨S1x4x900x256, .f32⟩
  | .local _ .vmem, ⟨3, _⟩ => ⟨S1x4x900x256, .f32⟩
  | .local _ .vmem, ⟨4, _⟩ => ⟨S1x900x900, .f32⟩
  | .local _ .vmem, ⟨5, _⟩ => ⟨S1x900x900, .f32⟩
  | _, _ => ⟨S16x4x900x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_c : Ref sig .tc := ⟨.hbm, 10, rfl⟩
abbrev main_v8 : Ref sig .tc := ⟨.hbm, 11, rfl⟩
abbrev main_v9 : Ref sig .tc := ⟨.hbm, 12, rfl⟩
abbrev main_c_0 : Ref sig .tc := ⟨.hbm, 13, rfl⟩
abbrev main_call0_v0 : Ref sig .tc := ⟨.hbm, 14, rfl⟩
abbrev main_call0_c : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_c_1 : Ref sig .tc := ⟨.hbm, 21, rfl⟩
abbrev main_call0_v5 : Ref sig .tc := ⟨.hbm, 22, rfl⟩
abbrev main_call0_v6 : Ref sig .tc := ⟨.hbm, 23, rfl⟩
abbrev main_call0_c_2 : Ref sig .tc := ⟨.hbm, 24, rfl⟩
abbrev main_call0_v7 : Ref sig .tc := ⟨.hbm, 25, rfl⟩
abbrev main_call0_v8 : Ref sig .tc := ⟨.hbm, 26, rfl⟩
abbrev main_call0_c_3 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_v10 : Ref sig .tc := ⟨.hbm, 34, rfl⟩
abbrev main_c_1 : Ref sig .tc := ⟨.hbm, 35, rfl⟩
abbrev main_v11 : Ref sig .tc := ⟨.hbm, 36, rfl⟩
abbrev main_v12 : Ref sig .tc := ⟨.hbm, 37, rfl⟩
abbrev main_c_2 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_c_3 : Ref sig .tc := ⟨.hbm, 42, rfl⟩
abbrev main_v16 : Ref sig .tc := ⟨.hbm, 43, rfl⟩
abbrev main_v17 : Ref sig .tc := ⟨.hbm, 44, rfl⟩
abbrev main_c_4 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_cst : Ref sig .tc := ⟨.hbm, 54, rfl⟩
abbrev main_v26 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4x900x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4x900x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x900x900 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S1x4x900x256_S1x1x900x256_0_0_0_0 : ∀ a, (![0, 0, 0, 0] : Fin 4 → Nat) a + S1x1x900x256.size a ≤ S1x4x900x256.size a
  h_S1x1x900x256 : 0 < S1x1x900x256.numel
  shapeCasts_S1x1x900x256_S900x256 : S1x1x900x256.ShapeCasts S900x256
  bitsLt_bf16_f32 : FTy.bits .bf16 < FTy.bits .f32
  inb_S1x4x900x256_S1x1x900x256_0_1_0_0 : ∀ a, (![0, 1, 0, 0] : Fin 4 → Nat) a + S1x1x900x256.size a ≤ S1x4x900x256.size a
  inb_S1x4x900x256_S1x1x900x256_0_2_0_0 : ∀ a, (![0, 2, 0, 0] : Fin 4 → Nat) a + S1x1x900x256.size a ≤ S1x4x900x256.size a
  inb_S1x4x900x256_S1x1x900x256_0_3_0_0 : ∀ a, (![0, 3, 0, 0] : Fin 4 → Nat) a + S1x1x900x256.size a ≤ S1x4x900x256.size a
  inb_S1x900x900_S1x900x900_0_0_0 : ∀ a, (![0, 0, 0] : Fin 3 → Nat) a + S1x900x900.size a ≤ S1x900x900.size a
  h_S1x900x900 : 0 < S1x900x900.numel
  shapeCasts_S1x900x900_S900x900 : S1x900x900.ShapeCasts S900x900
  shapeCasts_S900x900_S1x900x900 : S900x900.ShapeCasts S1x900x900
  bcast_S900_S900x1_0 : S900.BroadcastsInDim S900x1 (![0] : Fin 1 → Fin S900x1.rank)
  bcast_S900_S1x900_1 : S900.BroadcastsInDim S1x900 (![1] : Fin 1 → Fin S1x900.rank)
  bcast_S900x1_S900x900_0_1 : S900x1.BroadcastsInDim S900x900 (![0, 1] : Fin 2 → Fin S900x900.rank)
  bcast_S1x900_S900x900_0_1 : S1x900.BroadcastsInDim S900x900 (![0, 1] : Fin 2 → Fin S900x900.rank)
  bcast_S_S900x900 : S_.BroadcastsInDim S900x900 (![] : Fin 0 → Fin S900x900.rank)
  bcast_S_S1x900 : S_.BroadcastsInDim S1x900 (![] : Fin 0 → Fin S1x900.rank)
  bcast_S900x900_S900x900x1_0_1 : S900x900.BroadcastsInDim S900x900x1 (![0, 1] : Fin 2 → Fin S900x900x1.rank)
  concatenates_S900x900x1_S900x900x1_S900x900x2_d2 : Shape.Concatenates [S900x900x1, S900x900x1] S900x900x2 2
  reducesTo_S16x900x900_S16x900_d2 : S16x900x900.ReducesTo [2] S16x900
  h_S_ : 0 < S_.numel
  dot_S900x256_S900x256_S900x900_1_1_0_0_n_n_wf : DotDims.WF S900x256 S900x256 S900x900 [1] [1] [0] [0] [] []
  gather_S16x900x900_S900x900x2_S16x900x900_0_12_n_n_12_2_1611_wf : GatherDims.WF S16x900x900 S900x900x2 S16x900x900 [0] [1, 2] [] [1, 2] [] 2 ![16, 1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4x900x256.size a ≤ S16x4x900x256.size a
  hwx0_0 : ∀ i : grid0.Coords, EltTy.bits .f32 = 32 ∨ (Rect.block (s := S16x4x900x256) S1x4x900x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4x900x256.size a ≤ S16x4x900x256.size a
  hwx0_1 : ∀ i : grid0.Coords, EltTy.bits .f32 = 32 ∨ (Rect.block (s := S16x4x900x256) S1x4x900x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x900x900.size a ≤ S16x900x900.size a
  hwx0_2 : ∀ i : grid0.Coords, EltTy.bits .f32 = 32 ∨ (Rect.block (s := S16x900x900) S1x900x900.size (cc0_transform_2 i) (hinb0_2 i)).WholeWords (EltTy.packing .f32)

variable [Facts₀]

def dot_S900x256_S900x256_S900x900_1_1_0_0_n_n : DotDims S900x256 S900x256 S900x900 where
  lhsContracting := [1]
  rhsContracting := [1]
  lhsNonContracting := [0]
  rhsNonContracting := [0]
  lhsBatch := []
  rhsBatch := []
  wf := dot_S900x256_S900x256_S900x900_1_1_0_0_n_n_wf
def gather_S16x900x900_S900x900x2_S16x900x900_0_12_n_n_12_2_1611 : GatherDims S16x900x900 S900x900x2 S16x900x900 where
  offsetDims := [0]
  collapsedSliceDims := [1, 2]
  operandBatchingDims := []
  startIndicesBatchingDims := []
  startIndexMap := [1, 2]
  indexVectorDim := 2
  sliceSizes := ![16, 1, 1]
  wf := gather_S16x900x900_S900x900x2_S16x900x900_0_12_n_n_12_2_1611_wf

abbrev win0_0 : Pipeline.Window sig grid0 :=
  Pipeline.Window.ofSpec (Memref.whole main_arg0) S1x4x900x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x4x900x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x900x900.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x4x900x256 : Shape := ⟨4, ![16, 4, 900, 256]⟩
abbrev S16x900x4x256 : Shape := ⟨4, ![16, 900, 4, 256]⟩
abbrev S16x900x1024 : Shape := ⟨3, ![16, 900, 1024]⟩
abbrev S16x900x900 : Shape := ⟨3, ![16, 900, 900]⟩
abbrev S900 : Shape := ⟨1, ![900]⟩
abbrev S900x1 : Shape := ⟨2, ![900, 1]⟩
abbrev S1x900 : Shape := ⟨2, ![1, 900]⟩
abbrev S900x900 : Shape := ⟨2, ![900, 900]⟩
abbrev S_ : Shape := ⟨0, ![]⟩
abbrev S900x900x1 : Shape := ⟨3, ![900, 900, 1]⟩
abbrev S900x900x2 : Shape := ⟨3, ![900, 900, 2]⟩
abbrev S16x900 : Shape := ⟨2, ![16, 900]⟩

abbrev nBuf : Space → Nat
  | .hbm => 60
  | .vmem => 0
  | .smem => 0
  | _ => 0

abbrev bufTy : (tb : Table) → Fin (tcTables nBuf tb) → BufTy
  | .hbm, ⟨0, _⟩ => ⟨S16x4x900x256, .f32⟩
  | .hbm, ⟨1, _⟩ => ⟨S16x4x900x256, .f32⟩
  | .hbm, ⟨2, _⟩ => ⟨S16x900x4x256, .f32⟩
  | .hbm, ⟨3, _⟩ => ⟨S16x900x1024, .f32⟩
  | .hbm, ⟨4, _⟩ => ⟨S16x900x4x256, .f32⟩
  | .hbm, ⟨5, _⟩ => ⟨S16x900x1024, .f32⟩
  | .hbm, ⟨6, _⟩ => ⟨S16x900x900, .f32⟩
  | .hbm, ⟨7, _⟩ => ⟨S900, .i32⟩
  | .hbm, ⟨8, _⟩ => ⟨S900x1, .i32⟩
  | .hbm, ⟨9, _⟩ => ⟨S900, .i32⟩
  | .hbm, ⟨10, _⟩ => ⟨S1x900, .i32⟩
  | .hbm, ⟨11, _⟩ => ⟨S900x900, .i32⟩
  | .hbm, ⟨12, _⟩ => ⟨S900x900, .i32⟩
  | .hbm, ⟨13, _⟩ => ⟨S900x900, .i32⟩
  | .hbm, ⟨14, _⟩ => ⟨S_, .i32⟩
  | .hbm, ⟨15, _⟩ => ⟨S900x900, .i32⟩
  | .hbm, ⟨16, _⟩ => ⟨S900x900, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i1⟩
  | .hbm, ⟨21, _⟩ => ⟨S_, .i32⟩
  | .hbm, ⟨22, _⟩ => ⟨S_, .i32⟩
  | .hbm, ⟨23, _⟩ => ⟨S900x900, .i32⟩
  | .hbm, ⟨24, _⟩ => ⟨S900x900, .i32⟩
  | .hbm, ⟨25, _⟩ => ⟨S_, .i32⟩
  | .hbm, ⟨26, _⟩ => ⟨S900x900, .i32⟩
  | .hbm, ⟨27, _⟩ => ⟨S900x900, .i1⟩
  | .hbm, ⟨28, _⟩ => ⟨S_, .i32⟩
  | .hbm, ⟨29, _⟩ => ⟨S900x900, .i32⟩
  | .hbm, ⟨30, _⟩ => ⟨S900x900, .i1⟩
  | .hbm, ⟨31, _⟩ => ⟨S_, .i32⟩
  | .hbm, ⟨32, _⟩ => ⟨S_, .i1⟩
  | .hbm, ⟨33, _⟩ => ⟨S900x900, .i1⟩
  | .hbm, ⟨34, _⟩ => ⟨S900x900, .i1⟩
  | .hbm, ⟨35, _⟩ => ⟨S900x900, .i1⟩
  | .hbm, ⟨36, _⟩ => ⟨S900x900, .i32⟩
  | .hbm, ⟨37, _⟩ => ⟨S900x900, .i32⟩
  | .hbm, ⟨38, _⟩ => ⟨S900x900, .i32⟩
  | .hbm, ⟨39, _⟩ => ⟨S_, .i32⟩
  | .hbm, ⟨40, _⟩ => ⟨S900x900, .i32⟩
  | .hbm, ⟨41, _⟩ => ⟨S900x900, .i1⟩
  | .hbm, ⟨42, _⟩ => ⟨S_, .i32⟩
  | .hbm, ⟨43, _⟩ => ⟨S900x900, .i32⟩
  | .hbm, ⟨44, _⟩ => ⟨S900x900, .i32⟩
  | .hbm, ⟨45, _⟩ => ⟨S900x900, .i32⟩
  | .hbm, ⟨46, _⟩ => ⟨S_, .i32⟩
  | .hbm, ⟨47, _⟩ => ⟨S1x900, .i32⟩
  | .hbm, ⟨48, _⟩ => ⟨S1x900, .i1⟩
  | .hbm, ⟨49, _⟩ => ⟨S_, .i32⟩
  | .hbm, ⟨50, _⟩ => ⟨S1x900, .i32⟩
  | .hbm, ⟨51, _⟩ => ⟨S1x900, .i32⟩
  | .hbm, ⟨52, _⟩ => ⟨S1x900, .i32⟩
  | .hbm, ⟨53, _⟩ => ⟨S900x900, .i32⟩
  | .hbm, ⟨54, _⟩ => ⟨S900x900x1, .i32⟩
  | .hbm, ⟨55, _⟩ => ⟨S900x900x1, .i32⟩
  | .hbm, ⟨56, _⟩ => ⟨S900x900x2, .i32⟩
  | .hbm, ⟨57, _⟩ => ⟨S16x900x900, .f32⟩
  | .hbm, ⟨58, _⟩ => ⟨S_, .f32⟩
  | .hbm, ⟨59, _⟩ => ⟨S16x900, .f32⟩
  | _, _ => ⟨S16x4x900x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_c : Ref sig .tc := ⟨.hbm, 14, rfl⟩
abbrev main_v12 : Ref sig .tc := ⟨.hbm, 15, rfl⟩
abbrev main_v13 : Ref sig .tc := ⟨.hbm, 16, rfl⟩
abbrev main_c_0 : Ref sig .tc := ⟨.hbm, 17, rfl⟩
abbrev main_call0_v0 : Ref sig .tc := ⟨.hbm, 18, rfl⟩
abbrev main_call0_c : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_c_1 : Ref sig .tc := ⟨.hbm, 25, rfl⟩
abbrev main_call0_v5 : Ref sig .tc := ⟨.hbm, 26, rfl⟩
abbrev main_call0_v6 : Ref sig .tc := ⟨.hbm, 27, rfl⟩
abbrev main_call0_c_2 : Ref sig .tc := ⟨.hbm, 28, rfl⟩
abbrev main_call0_v7 : Ref sig .tc := ⟨.hbm, 29, rfl⟩
abbrev main_call0_v8 : Ref sig .tc := ⟨.hbm, 30, rfl⟩
abbrev main_call0_c_3 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_v12 : Ref sig .tc := ⟨.hbm, 35, rfl⟩
abbrev main_call0_v13 : Ref sig .tc := ⟨.hbm, 36, rfl⟩
abbrev main_call0_v14 : Ref sig .tc := ⟨.hbm, 37, rfl⟩
abbrev main_v14 : Ref sig .tc := ⟨.hbm, 38, rfl⟩
abbrev main_c_1 : Ref sig .tc := ⟨.hbm, 39, rfl⟩
abbrev main_v15 : Ref sig .tc := ⟨.hbm, 40, rfl⟩
abbrev main_v16 : Ref sig .tc := ⟨.hbm, 41, rfl⟩
abbrev main_c_2 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_c_3 : Ref sig .tc := ⟨.hbm, 46, rfl⟩
abbrev main_v20 : Ref sig .tc := ⟨.hbm, 47, rfl⟩
abbrev main_v21 : Ref sig .tc := ⟨.hbm, 48, rfl⟩
abbrev main_c_4 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_cst : Ref sig .tc := ⟨.hbm, 58, rfl⟩
abbrev main_v30 : Ref sig .tc := ⟨.hbm, 59, rfl⟩

abbrev nD : Nat := 1
abbrev τ : Topo := Topo.v7x

variable {F : FTy → Type} [FloatOps F]

class Facts₀ : Prop where
  transposes_S16x4x900x256_S16x900x4x256_0_2_1_3 : S16x4x900x256.Transposes [0, 2, 1, 3] S16x900x4x256
  shapeCasts_S16x900x4x256_S16x900x1024 : S16x900x4x256.ShapeCasts S16x900x1024
  bcast_S900_S900x1_0 : S900.BroadcastsInDim S900x1 (![0] : Fin 1 → Fin S900x1.rank)
  bcast_S900_S1x900_1 : S900.BroadcastsInDim S1x900 (![1] : Fin 1 → Fin S1x900.rank)
  bcast_S900x1_S900x900_0_1 : S900x1.BroadcastsInDim S900x900 (![0, 1] : Fin 2 → Fin S900x900.rank)
  bcast_S1x900_S900x900_0_1 : S1x900.BroadcastsInDim S900x900 (![0, 1] : Fin 2 → Fin S900x900.rank)
  bcast_S_S900x900 : S_.BroadcastsInDim S900x900 (![] : Fin 0 → Fin S900x900.rank)
  bcast_S_S1x900 : S_.BroadcastsInDim S1x900 (![] : Fin 0 → Fin S1x900.rank)
  bcast_S900x900_S900x900x1_0_1 : S900x900.BroadcastsInDim S900x900x1 (![0, 1] : Fin 2 → Fin S900x900x1.rank)
  concatenates_S900x900x1_S900x900x1_S900x900x2_d2 : Shape.Concatenates [S900x900x1, S900x900x1] S900x900x2 2
  reducesTo_S16x900x900_S16x900_d2 : S16x900x900.ReducesTo [2] S16x900
  h_S_ : 0 < S_.numel
  dot_S16x900x1024_S16x900x1024_S16x900x900_2_2_1_1_0_0_wf : DotDims.WF S16x900x1024 S16x900x1024 S16x900x900 [2] [2] [1] [1] [0] [0]
  gather_S16x900x900_S900x900x2_S16x900x900_0_12_n_n_12_2_1611_wf : GatherDims.WF S16x900x900 S900x900x2 S16x900x900 [0] [1, 2] [] [1, 2] [] 2 ![16, 1, 1]

variable [Facts₀]

def dot_S16x900x1024_S16x900x1024_S16x900x900_2_2_1_1_0_0 : DotDims S16x900x1024 S16x900x1024 S16x900x900 where
  lhsContracting := [2]
  rhsContracting := [2]
  lhsNonContracting := [1]
  rhsNonContracting := [1]
  lhsBatch := [0]
  rhsBatch := [0]
  wf := dot_S16x900x1024_S16x900x1024_S16x900x900_2_2_1_1_0_0_wf
def gather_S16x900x900_S900x900x2_S16x900x900_0_12_n_n_12_2_1611 : GatherDims S16x900x900 S900x900x2 S16x900x900 where
  offsetDims := [0]
  collapsedSliceDims := [1, 2]
  operandBatchingDims := []
  startIndicesBatchingDims := []
  startIndexMap := [1, 2]
  indexVectorDim := 2
  sliceSizes := ![16, 1, 1]
  wf := gather_S16x900x900_S900x900x2_S16x900x900_0_12_n_n_12_2_1611_wf

class Facts : Prop extends Facts₀ where

variable [Facts]
-- ==== Proof.Spec.lean ====
/-
  The matrix both programs build before their common last steps.  For a batch entry `b` the inputs are read as two
  families of vectors indexed by a position `i < 900`, each vector having the `4 · 256` components `(h, c)`:
  `x[b, h, i, c]` and `y[b, h, j, c]`.  The matrix is their table of inner products

      gram x y [b, i, j]  =  Σ_{h < 4} Σ_{c < 256}  x[b, h, i, c] · y[b, h, j, c].

  One program sums the four inner sums one after the other starting from zero; the other flattens `(h, c)` to the
  single component `d = 256·h + c < 1024` and sums once over `d`.  On the extended reals addition is commutative and
  associative (with `0` neutral), so a finite sum may be re-indexed along any bijection of its index set: no
  finiteness of the entries is needed.  The re-indexing used is `Fin 4 × Fin 256 ≃ Fin 1024`, `(h, c) ↦ c + 256·h`.
-/
import Idealize.ShloMosaic.PureOps.Ideal
import Idealize.ShloMosaic.PureOps.Ideal.Laws
import Idealize.ShloMosaic.Lib.ValueIdx

noncomputable section

open scoped BigOperators

namespace Cert.Gram

open Idealize.ShloMosaic Idealize.ShloMosaic.ValueIdx

/-- The inputs' shape: batch, group `h`, position, component `c`. -/
abbrev SX : Shape := ⟨4, ![16, 4, 900, 256]⟩
/-- The matrix's shape: batch, position of `x`, position of `y`. -/
abbrev SG : Shape := ⟨3, ![16, 900, 900]⟩

/-- The table of inner products, over the pairs `(h, c)`. -/
def gram (x y : FVec Ideal SX .f32) : FVec Ideal SG .f32 := fun i =>
  ∑ h : Fin 4, ∑ c : Fin 256, x (ix4 (i 0) h (i 1) c) * y (ix4 (i 0) h (i 2) c)

theorem gram_apply (x y : FVec Ideal SX .f32) (b : Fin 16) (i j : Fin 900) :
    gram x y (ix3 b i j) = ∑ h : Fin 4, ∑ c : Fin 256, x (ix4 b h i c) * y (ix4 b h j c) := rfl

/-- A sum over `m · n` consecutive indices is the double sum over the pairs `(a, b)`, the index being `b + n · a`. -/
theorem sum_fin_mul {M : Type*} [AddCommMonoid M] (m n : ℕ) (f : Fin (m * n) → M) :
    ∑ q, f q = ∑ a : Fin m, ∑ b : Fin n, f (finProdFinEquiv (a, b)) := by
  rw [← Equiv.sum_comp finProdFinEquiv f, Fintype.sum_prod_type]

/-- The flat component `c + 256 · h` has quotient `h` and remainder `c` by `256`. -/
theorem flat_div (h : Fin 4) (c : Fin 256) : ((finProdFinEquiv (h, c) : Fin (4 * 256)) : ℕ) / 256 = h := by
  have := c.isLt; have := h.isLt
  show (c.val + 256 * h.val) / 256 = h.val
  omega
theorem flat_mod (h : Fin 4) (c : Fin 256) : ((finProdFinEquiv (h, c) : Fin (4 * 256)) : ℕ) % 256 = c := by
  have := c.isLt; have := h.isLt
  show (c.val + 256 * h.val) % 256 = c.val
  omega

/-- Four sums added one after the other, starting from zero, are the sum over the four. -/
theorem sum_four {M : Type*} [AddCommMonoid M] (f : Fin 4 → M) : 0 + f 0 + f 1 + f 2 + f 3 = ∑ h : Fin 4, f h := by
  rw [Fin.sum_univ_four, zero_add]

end Cert.Gram

end
-- ==== Proof.LibMatmulNT.lean ====
/-
  Two general facts about values read at an index, at the exact (extended-real) reading of the float operations.

  * The product `A · Bᵀ` of an `m × k` and an `n × k` matrix — a matrix unit's product whose dimension numbers contract
    the LAST axis of both operands and keep no batch axis — accumulated into the zero matrix, read at `(a, b)`, is the
    inner product of row `a` of `A` with row `b` of `B`:  Σ_{c < k} A[a, c] · B[b, c].
  * A block `[1, 1, a, b]` viewed as the matrix `[a, b]` reads `(0, 0, i, j)` at `(i, j)`.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.Gram

open Idealize.ShloMosaic Idealize.ShloMosaic.ValueIdx

/-- `A · Bᵀ` into the zero accumulator, read at `(a, b)`: the inner product of the two rows. `w` is the record's
    well-formedness, which a program states. -/
theorem matmul_nt_zero_apply {m n k : ℕ} {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (a : Fin m) (b : Fin n) :
    matmul (⟨[1], [1], [0], [0], [], [], w⟩ : DotDims _ _ _) prec A B (constant ⟨2, ![m, n]⟩ .f32 0x00000000#32) (ix2 a b)
      = ∑ c : Fin k, A (ix2 a c) * B (ix2 b c) := by
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

/-- A `[1, 1, a, b]` block cast to the matrix `[a, b]` reads, at `(i, j)`, the block at `(0, 0, i, j)`. -/
theorem shapeCast_11ab_ab_apply {α : Type} {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp)

end Cert.Gram

end
-- ==== Proof.KernelBlock.lean ====
/-
  What one grid point's body leaves in the output block, read at an entry.  The body holds one batch entry: the
  blocks `x0, x1 : [1, 4, 900, 256]`.  For each group `h < 4` it takes the two `900 × 256` slices `x0[0, h]`, `x1[0, h]`,
  forms `x0[0, h] · x1[0, h]ᵀ` on the matrix unit into a zero accumulator, and adds the four products one after the
  other to a zero matrix; the narrowing of the slices to a shorter float format before the product is the identity on
  exact values.  So the stored block at `(0, i, j)` is

      0 + Σ_c x0[0,0,i,c]·x1[0,0,j,c] + Σ_c x0[0,1,i,c]·x1[0,1,j,c] + Σ_c x0[0,2,i,c]·x1[0,2,j,c] + Σ_c x0[0,3,i,c]·x1[0,3,j,c]
        =  Σ_{h < 4} Σ_{c < 256} x0[0,h,i,c] · x1[0,h,j,c].
-/
import proofs.«147074_j2439541424700_1_alg».proof.Proof.Gen.KernelIdeal.Frame
import proofs.«147074_j2439541424700_1_alg».proof.Proof.Spec
import proofs.«147074_j2439541424700_1_alg».proof.Proof.LibMatmulNT
import Idealize.ShloMosaic.Lib.ValueLayout

noncomputable section

open scoped BigOperators

namespace Cert.KernelIdeal.BlockValue

open Cert.KernelIdeal Cert.KernelIdeal.Gen Idealize.ShloMosaic Idealize.ShloMosaic.ValueIdx

/-- One group's product at `(i, j)`: the inner product over the 256 components of row `i` of `u` and row `j` of `v`. -/
theorem prod_apply (u v : Vec Ideal S1x1x900x256 .f32) (hs : S1x1x900x256.ShapeCasts S900x256)
    (hb : FTy.bits .bf16 < FTy.bits .f32) (i j : Fin 900) :
    matmul (F := Ideal) dot_S900x256_S900x256_S900x900_1_1_0_0_n_n none
        (truncf .bf16 (shapeCast S900x256 u hs : FVec Ideal S900x256 .f32) hb)
        (truncf .bf16 (shapeCast S900x256 v hs : FVec Ideal S900x256 .f32) hb)
        (constant S900x900 .f32 0x00000000#32) (ix2 i j)
      = ∑ c : Fin 256, u (ix4 (0 : Fin 1) (0 : Fin 1) i c) * v (ix4 (0 : Fin 1) (0 : Fin 1) j c) := by
  unfold dot_S900x256_S900x256_S900x900_1_1_0_0_n_n
  rw [Cert.Gram.matmul_nt_zero_apply]
  refine Finset.sum_congr rfl fun c _ => ?_
  rw [truncf_apply, truncf_apply, Cert.Gram.shapeCast_11ab_ab_apply, Cert.Gram.shapeCast_11ab_ab_apply]

theorem hz3 : (![0, 0, 0] : Fin 3 → Nat) = fun _ => 0 := funext fun a => by fin_cases a <;> rfl

/-- A slice `[0, h]` of the block, loaded whole, read at `(0, 0, i, c)` is the block at `(0, h, i, c)`. -/
theorem ld0 (x : Vec Ideal S1x4x900x256 .f32) (i : Fin 900) (c : Fin 256) :
    View.ld x r0_0 (ix4 (0 : Fin 1) (0 : Fin 1) i c) = x (ix4 (0 : Fin 1) (0 : Fin 4) i c) := by
  show x _ = x _
  congr 1; funext a; apply Fin.ext
  match a with
  | ⟨0, _⟩ => rfl
  | ⟨1, _⟩ => rfl
  | ⟨2, _⟩ => show 0 + 1 * i.val = i.val; omega
  | ⟨3, _⟩ => show 0 + 1 * c.val = c.val; omega
theorem ld1 (x : Vec Ideal S1x4x900x256 .f32) (i : Fin 900) (c : Fin 256) :
    View.ld x r0_1 (ix4 (0 : Fin 1) (0 : Fin 1) i c) = x (ix4 (0 : Fin 1) (1 : Fin 4) i c) := by
  show x _ = x _
  congr 1; funext a; apply Fin.ext
  match a with
  | ⟨0, _⟩ => rfl
  | ⟨1, _⟩ => rfl
  | ⟨2, _⟩ => show 0 + 1 * i.val = i.val; omega
  | ⟨3, _⟩ => show 0 + 1 * c.val = c.val; omega
theorem ld2 (x : Vec Ideal S1x4x900x256 .f32) (i : Fin 900) (c : Fin 256) :
    View.ld x r0_2 (ix4 (0 : Fin 1) (0 : Fin 1) i c) = x (ix4 (0 : Fin 1) (2 : Fin 4) i c) := by
  show x _ = x _
  congr 1; funext a; apply Fin.ext
  match a with
  | ⟨0, _⟩ => rfl
  | ⟨1, _⟩ => rfl
  | ⟨2, _⟩ => show 0 + 1 * i.val = i.val; omega
  | ⟨3, _⟩ => show 0 + 1 * c.val = c.val; omega
theorem ld3 (x : Vec Ideal S1x4x900x256 .f32) (i : Fin 900) (c : Fin 256) :
    View.ld x r0_3 (ix4 (0 : Fin 1) (0 : Fin 1) i c) = x (ix4 (0 : Fin 1) (3 : Fin 4) i c) := by
  show x _ = x _
  congr 1; funext a; apply Fin.ext
  match a with
  | ⟨0, _⟩ => rfl
  | ⟨1, _⟩ => rfl
  | ⟨2, _⟩ => show 0 + 1 * i.val = i.val; omega
  | ⟨3, _⟩ => show 0 + 1 * c.val = c.val; omega

/-- The stored block at `(0, i, j)`: the double sum over groups and components. -/
theorem block_apply (x0 x1 : Vec Ideal S1x4x900x256 .f32) (i j : Fin 900) :
    out0_2 x0 x1 (ix3 (0 : Fin 1) i j)
      = ∑ h : Fin 4, ∑ c : Fin 256, x0 (ix4 (0 : Fin 1) h i c) * x1 (ix4 (0 : Fin 1) h j c) := by
  unfold out0_2
  rw [View.canon_unit_zero hz3]
  unfold k0_pay1 k0_pay2 k0_pay3
  simp only [shapeCast_ab_1ab_apply, addf_apply, broadcast_apply, prod_apply]
  simp only [Ideal.ofBits_def, Ideal.ofBits_zero_f32]
  have e0 : ∀ c : Fin 256, View.ld x0 r0_0 (ix4 (0 : Fin 1) (0 : Fin 1) i c) * View.ld x1 r0_0 (ix4 (0 : Fin 1) (0 : Fin 1) j c)
      = x0 (ix4 (0 : Fin 1) (0 : Fin 4) i c) * x1 (ix4 (0 : Fin 1) (0 : Fin 4) j c) := fun c => by rw [ld0 x0 i c, ld0 x1 j c]
  have e1 : ∀ c : Fin 256, View.ld x0 r0_1 (ix4 (0 : Fin 1) (0 : Fin 1) i c) * View.ld x1 r0_1 (ix4 (0 : Fin 1) (0 : Fin 1) j c)
      = x0 (ix4 (0 : Fin 1) (1 : Fin 4) i c) * x1 (ix4 (0 : Fin 1) (1 : Fin 4) j c) := fun c => by rw [ld1 x0 i c, ld1 x1 j c]
  have e2 : ∀ c : Fin 256, View.ld x0 r0_2 (ix4 (0 : Fin 1) (0 : Fin 1) i c) * View.ld x1 r0_2 (ix4 (0 : Fin 1) (0 : Fin 1) j c)
      = x0 (ix4 (0 : Fin 1) (2 : Fin 4) i c) * x1 (ix4 (0 : Fin 1) (2 : Fin 4) j c) := fun c => by rw [ld2 x0 i c, ld2 x1 j c]
  have e3 : ∀ c : Fin 256, View.ld x0 r0_3 (ix4 (0 : Fin 1) (0 : Fin 1) i c) * View.ld x1 r0_3 (ix4 (0 : Fin 1) (0 : Fin 1) j c)
      = x0 (ix4 (0 : Fin 1) (3 : Fin 4) i c) * x1 (ix4 (0 : Fin 1) (3 : Fin 4) j c) := fun c => by rw [ld3 x0 i c, ld3 x1 j c]
  rw [Finset.sum_congr rfl fun c _ => e0 c, Finset.sum_congr rfl fun c _ => e1 c, Finset.sum_congr rfl fun c _ => e2 c,
    Finset.sum_congr rfl fun c _ => e3 c]
  exact Cert.Gram.sum_four fun h => ∑ c : Fin 256, x0 (ix4 (0 : Fin 1) h i c) * x1 (ix4 (0 : Fin 1) h j c)

end Cert.KernelIdeal.BlockValue

end
-- ==== Proof.KernelArray.lean ====
/-
  From the blocks to the array.  The grid has one point per batch entry `t < 16`; at point `t` each input window holds
  the slab `[t, :, :, :]` of its array and the output window the slab `[t, :, :]` of the matrix array, every slab
  whole, so the 16 output slabs tile the array.  Point `t` writes back the block computed from the two input slabs, which
  is the slab `t` of the table of inner products of the two argument arrays; hence after the region the whole matrix
  array is that table.
-/
import proofs.«147074_j2439541424700_1_alg».proof.Proof.Gen.KernelIdeal.Frame
import proofs.«147074_j2439541424700_1_alg».proof.Proof.KernelBlock
import Idealize.ShloMosaic.Lib.Pipeline.Value

noncomputable section

open scoped BigOperators

namespace Cert.KernelIdeal.ArrayValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- The index maps over the grid: every window's block index is `(t, 0, …, 0)`. -/
theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 4) = t.val ∧ win0_1.index t (1 : Fin 4) = 0 ∧ win0_1.index t (2 : Fin 4) = 0 ∧ win0_1.index t (3 : Fin 4) = 0
    ∧ win0_2.index t (0 : Fin 3) = t.val ∧ win0_2.index t (1 : Fin 3) = 0 ∧ win0_2.index t (2 : Fin 3) = 0 :=
  (by decide +kernel : ∀ t : Fin grid0.N, _)

/-- The first input window's block at point `t`, read at `(0, h, i, k)`, is the first argument at `(t, h, i, k)`. -/
theorem iblk0_apply (c : Dev nD) (t : Fin cfg0.N) (b : Fin 16) (hb : b.val = t.val) (h : Fin 4) (i : Fin 900) (k : Fin 256) :
    (iblk m c 0 t : Vec Ideal S1x4x900x256 .f32) (ix4 (0 : Fin 1) h i k)
      = (m ((c : Thread nD τ).loc main_arg0) : S16x4x900x256.Idx → Elt Ideal .f32) (ix4 b h i k) := by
  obtain ⟨e0, e1, e2, e3, -⟩ := idx_facts t
  unfold iblk
  rw [View.read_apply]
  show V m c main_arg0 _ = m (c.tc.loc main_arg0) _
  rw [V_main_arg0]
  congr 1
  funext a
  apply Fin.ext
  match a with
  | ⟨0, _⟩ => show win0_0.index t 0 * 1 + 1 * 0 = b.val; rw [e0, hb]; omega
  | ⟨1, _⟩ => show win0_0.index t 1 * 4 + 1 * h.val = h.val; rw [e1]; omega
  | ⟨2, _⟩ => show win0_0.index t 2 * 900 + 1 * i.val = i.val; rw [e2]; omega
  | ⟨3, _⟩ => show win0_0.index t 3 * 256 + 1 * k.val = k.val; rw [e3]; omega

/-- The same for the second input window and the second argument. -/
theorem iblk1_apply (c : Dev nD) (t : Fin cfg0.N) (b : Fin 16) (hb : b.val = t.val) (h : Fin 4) (i : Fin 900) (k : Fin 256) :
    (iblk m c 1 t : Vec Ideal S1x4x900x256 .f32) (ix4 (0 : Fin 1) h i k)
      = (m ((c : Thread nD τ).loc main_arg1) : S16x4x900x256.Idx → Elt Ideal .f32) (ix4 b h i k) := by
  obtain ⟨-, -, -, -, e0, e1, e2, e3, -⟩ := idx_facts t
  unfold iblk
  rw [View.read_apply]
  show V m c main_arg1 _ = m (c.tc.loc main_arg1) _
  rw [V_main_arg1]
  congr 1
  funext a
  apply Fin.ext
  match a with
  | ⟨0, _⟩ => show win0_1.index t 0 * 1 + 1 * 0 = b.val; rw [e0, hb]; omega
  | ⟨1, _⟩ => show win0_1.index t 1 * 4 + 1 * h.val = h.val; rw [e1]; omega
  | ⟨2, _⟩ => show win0_1.index t 2 * 900 + 1 * i.val = i.val; rw [e2]; omega
  | ⟨3, _⟩ => show win0_1.index t 3 * 256 + 1 * k.val = k.val; rw [e3]; omega

/-- The block point `t` computes, at a block index `y`, is the table of inner products of the two argument arrays at the
    array index `k` with batch coordinate `t` and `y`'s row and column. -/
theorem block_at (c : Dev nD) (t : Fin cfg0.N) (y : S1x900x900.Idx) (k : S16x900x900.Idx)
    (hk0 : (k 0).val = t.val) (hk1 : (k 1).val = (y 1).val) (hk2 : (k 2).val = (y 2).val) :
    out0_2 (iblk m c 0 t) (iblk m c 1 t) y
      = Cert.Gram.gram (m ((c : Thread nD τ).loc main_arg0)) (m ((c : Thread nD τ).loc main_arg1)) k := by
  obtain ⟨u, i, j, rfl⟩ : ∃ (u : Fin 1) (i j : Fin 900), y = ix3 u i j := ⟨y 0, y 1, y 2, eq_ix3 y⟩
  obtain ⟨b, i', j', rfl⟩ : ∃ (b : Fin 16) (i' j' : Fin 900), k = ix3 b i' j' := ⟨k 0, k 1, k 2, eq_ix3 k⟩
  obtain rfl : u = 0 := Subsingleton.elim _ _
  obtain rfl : i' = i := Fin.ext hk1
  obtain rfl : j' = j := Fin.ext hk2
  rw [Cert.Gram.gram_apply, Cert.KernelIdeal.BlockValue.block_apply]
  refine Finset.sum_congr rfl fun h _ => Finset.sum_congr rfl fun k _ => ?_
  rw [iblk0_apply m c t b hk0 h i' k, iblk1_apply m c t b hk0 h j' k]

/-- What point `t` writes back is block `t` of the table of inner products of the argument arrays. -/
theorem flushed_eq (c : Dev nD) (t : Fin cfg0.N) :
    (dats m 0 c).flushed 2 t = ((cfg0.win 2).blk t).view.read (Elt Ideal)
      (Cert.Gram.gram (m ((c : Thread nD τ).loc main_arg0)) (m ((c : Thread nD τ).loc main_arg1))) := by
  show (cfg0.win 2).cut (grid0.coords t) ((dats m 0 c).after 2 t) = _
  rw [after0_2]
  obtain ⟨-, -, -, -, -, -, -, -, g0, g1, g2⟩ := idx_facts t
  funext y
  refine block_at m c t y (((cfg0.win 2).blk t).view.emb y) ?_ ?_ ?_
  · show win0_2.index t 0 * 1 + 1 * (y 0).val = t.val
    have hy : (y 0).val < 1 := (y 0).isLt
    rw [g0]; omega
  · show win0_2.index t 1 * 900 + 1 * (y 1).val = (y 1).val
    rw [g1]; omega
  · show win0_2.index t 2 * 900 + 1 * (y 2).val = (y 2).val
    rw [g2]; omega

/-- An index of the matrix array is in point `t`'s block iff each coordinate is in the block's range on its axis. -/
theorem mem_blk (t : Fin cfg0.N) (i : S16x900x900.Idx) :
    i ∈ ((cfg0.win 2).blk t).view.set ↔ ∀ a : Fin 3, win0_2.index t a * S1x900x900.size a ≤ (i a).val ∧ (i a).val < win0_2.index t a * S1x900x900.size a + S1x900x900.size a := by
  show i ∈ ((View.whole main_v0).slice (win0_2.rect t)).set ↔ _
  rw [View.set_slice_whole, Rect.mem_set_unit]
  exact Iff.rfl

/-- Every index of the matrix array is in the block of the point that is its batch coordinate. -/
theorem cover (i : S16x900x900.Idx) : ∃ t : Fin cfg0.N, (cfg0.win 2).flush t = true ∧ i ∈ ((cfg0.win 2).blk t).view.set := by
  have hN : cfg0.N = 16 := N_0
  have hi0 : (i 0).val < 16 := (i 0).isLt
  have hi1 : (i 1).val < 900 := (i 1).isLt
  have hi2 : (i 2).val < 900 := (i 2).isLt
  refine ⟨⟨(i 0).val, by rw [hN]; exact hi0⟩, flush0_2 _, ?_⟩
  obtain ⟨-, -, -, -, -, -, -, -, g0, g1, g2⟩ := idx_facts ⟨(i 0).val, by rw [hN]; exact hi0⟩
  rw [mem_blk]
  intro a
  match a with
  | ⟨0, _⟩ => show win0_2.index _ (0 : Fin 3) * 1 ≤ (i 0).val ∧ (i 0).val < win0_2.index _ (0 : Fin 3) * 1 + 1; rw [g0]; constructor <;> (show _; simp only []; omega)
  | ⟨1, _⟩ => show win0_2.index _ (1 : Fin 3) * 900 ≤ (i 1).val ∧ (i 1).val < win0_2.index _ (1 : Fin 3) * 900 + 900; rw [g1]; omega
  | ⟨2, _⟩ => show win0_2.index _ (2 : Fin 3) * 900 ≤ (i 2).val ∧ (i 2).val < win0_2.index _ (2 : Fin 3) * 900 + 900; rw [g2]; omega

/-- The matrix array after the region: the table of inner products of the argument arrays. -/
theorem final (c : Dev nD) : (dats m 0 c).arrAt 2 cfg0.N
    = Cert.Gram.gram (m ((c : Thread nD τ).loc main_arg0)) (m ((c : Thread nD τ).loc main_arg1)) :=
  (dats m 0 c).arrAt_eq_of_cover 2 _ (fun t _ => flushed_eq m c t) cover

end Cert.KernelIdeal.ArrayValue

end
-- ==== Proof.Tail.lean ====
/-
  The last steps, common to both programs: from a matrix `g[b, i, j]` (batch, row, column) to

      out[b, s]  =  Σ_{w < 900}  g[b, (s + w + 450) mod 900, w],

  the sum along the wrapped diagonal that starts `450 + s` rows down.  Both programs spell it the same way: a table
  of index pairs `(row, column) = ((s + w + 450) mod 900, w)` built from two counters, the remainder written out with
  its sign corrections and the "negative index wraps once" adjustment of array indexing, then a gather of `g` at the
  table and a sum over the last axis.  Nothing here is ever evaluated: the proof only needs that both programs apply
  THIS function, so that equal matrices give equal results.  The function is stated over the shape relations its
  operations take (`TailFacts`), each program supplying its own witnesses of the same propositions.
-/
import Idealize.ShloMosaic.PureOps
import Idealize.ShloMosaic.Lib.StableHlo

noncomputable section

namespace Cert.Gram

open Idealize.ShloMosaic

abbrev S900 : Shape := ⟨1, ![900]⟩
abbrev S900x1 : Shape := ⟨2, ![900, 1]⟩
abbrev S1x900 : Shape := ⟨2, ![1, 900]⟩
abbrev S900x900 : Shape := ⟨2, ![900, 900]⟩
abbrev S_ : Shape := ⟨0, ![]⟩
abbrev S900x900x1 : Shape := ⟨3, ![900, 900, 1]⟩
abbrev S900x900x2 : Shape := ⟨3, ![900, 900, 2]⟩
abbrev S16x900x900 : Shape := ⟨3, ![16, 900, 900]⟩
abbrev S16x900 : Shape := ⟨2, ![16, 900]⟩

/-- The shape relations the tail's operations take. -/
structure TailFacts : Prop where
  bcast_S900_S900x1_0 : S900.BroadcastsInDim S900x1 (![0] : Fin 1 → Fin S900x1.rank)
  bcast_S900_S1x900_1 : S900.BroadcastsInDim S1x900 (![1] : Fin 1 → Fin S1x900.rank)
  bcast_S900x1_S900x900_0_1 : S900x1.BroadcastsInDim S900x900 (![0, 1] : Fin 2 → Fin S900x900.rank)
  bcast_S1x900_S900x900_0_1 : S1x900.BroadcastsInDim S900x900 (![0, 1] : Fin 2 → Fin S900x900.rank)
  bcast_S_S900x900 : S_.BroadcastsInDim S900x900 (![] : Fin 0 → Fin S900x900.rank)
  bcast_S_S1x900 : S_.BroadcastsInDim S1x900 (![] : Fin 0 → Fin S1x900.rank)
  bcast_S900x900_S900x900x1_0_1 : S900x900.BroadcastsInDim S900x900x1 (![0, 1] : Fin 2 → Fin S900x900x1.rank)
  concatenates_d2 : Shape.Concatenates [S900x900x1, S900x900x1] S900x900x2 2
  reducesTo_d2 : S16x900x900.ReducesTo [2] S16x900
  h_S_ : 0 < S_.numel
  gather_wf : GatherDims.WF S16x900x900 S900x900x2 S16x900x900 [0] [1, 2] [] [1, 2] [] 2 ![16, 1, 1]

/-- They hold: each is a finite check on the literal shapes. -/
theorem tailFacts : TailFacts :=
  ⟨by decide, by decide, by decide, by decide, by decide, by decide, by decide, by decide, by decide, by decide, by decide⟩

/-- The gather's dimension numbers: the batch axis is kept whole, the two index components select row and column. -/
def gatherDims (hf : TailFacts) : GatherDims S16x900x900 S900x900x2 S16x900x900 where
  offsetDims := [0]
  collapsedSliceDims := [1, 2]
  operandBatchingDims := []
  startIndicesBatchingDims := []
  startIndexMap := [1, 2]
  indexVectorDim := 2
  sliceSizes := ![16, 1, 1]
  wf := hf.gather_wf

/-- The column counter `w`, as a row vector. -/
def colCounter (hf : TailFacts) : IVec S1x900 32 :=
  broadcastInDim S1x900 ![1] hf.bcast_S900_S1x900_1 (iotaInDim S900 32 0)

/-- `s + w + 450`, over the square. -/
def shifted (hf : TailFacts) : IVec S900x900 32 :=
  let v2 : IVec S900x1 32 := broadcastInDim S900x1 ![0] hf.bcast_S900_S900x1_0 (iotaInDim S900 32 0)
  let v5 : IVec S900x900 32 := broadcastInDim S900x900 ![0, 1] hf.bcast_S900x1_S900x900_0_1 v2
  let v6 : IVec S900x900 32 := broadcastInDim S900x900 ![0, 1] hf.bcast_S1x900_S900x900_0_1 (colCounter hf)
  let v7 : IVec S900x900 32 := addi v5 v6
  let v8 : IVec S900x900 32 := broadcastInDim S900x900 ![] hf.bcast_S_S900x900 (constantI S_ 32 450#32)
  addi v7 v8

/-- The remainder by `900` with the sign of the divisor, as the array library writes it out. -/
def wrapped (hf : TailFacts) : IVec S900x900 32 :=
  let r0 : IVec S_ 32 := id (constantI S_ 32 900#32)
  let r1 : IVec S_ 1 := cmpi .eq r0 (constantI S_ 32 0#32)
  let r2 : IVec S_ 32 := select r1 (constantI S_ 32 1#32) r0
  let r3 : IVec S900x900 32 := broadcastInDim S900x900 ![] hf.bcast_S_S900x900 r2
  let r4 : IVec S900x900 32 := Host.remsi (shifted hf) r3
  let r5 : IVec S900x900 32 := broadcastInDim S900x900 ![] hf.bcast_S_S900x900 (constantI S_ 32 0#32)
  let r6 : IVec S900x900 1 := cmpi .ne r4 r5
  let r7 : IVec S900x900 32 := broadcastInDim S900x900 ![] hf.bcast_S_S900x900 (constantI S_ 32 0#32)
  let r8 : IVec S900x900 1 := cmpi .slt r4 r7
  let r9 : IVec S_ 1 := cmpi .slt r2 (constantI S_ 32 0#32)
  let r10 : IVec S900x900 1 := broadcastInDim S900x900 ![] hf.bcast_S_S900x900 r9
  let r11 : IVec S900x900 1 := cmpi .ne r8 r10
  let r12 : IVec S900x900 1 := andi r11 r6
  let r13 : IVec S900x900 32 := broadcastInDim S900x900 ![] hf.bcast_S_S900x900 r2
  let r14 : IVec S900x900 32 := addi r4 r13
  select r12 r14 r4

/-- The table of index pairs: row `(s + w + 450) mod 900` and column `w`, each with the one wrap of a negative index. -/
def indexTable (hf : TailFacts) : IVec S900x900x2 32 :=
  let v10 : IVec S900x900 32 := wrapped hf
  let v11 : IVec S900x900 32 := broadcastInDim S900x900 ![] hf.bcast_S_S900x900 (constantI S_ 32 0#32)
  let v12 : IVec S900x900 1 := cmpi .slt v10 v11
  let v13 : IVec S900x900 32 := broadcastInDim S900x900 ![] hf.bcast_S_S900x900 (constantI S_ 32 900#32)
  let v14 : IVec S900x900 32 := addi v10 v13
  let v15 : IVec S900x900 32 := select v12 v14 v10
  let v4 : IVec S1x900 32 := colCounter hf
  let v16 : IVec S1x900 32 := broadcastInDim S1x900 ![] hf.bcast_S_S1x900 (constantI S_ 32 0#32)
  let v17 : IVec S1x900 1 := cmpi .slt v4 v16
  let v18 : IVec S1x900 32 := broadcastInDim S1x900 ![] hf.bcast_S_S1x900 (constantI S_ 32 900#32)
  let v19 : IVec S1x900 32 := addi v4 v18
  let v20 : IVec S1x900 32 := select v17 v19 v4
  let v21 : IVec S900x900 32 := broadcastInDim S900x900 ![0, 1] hf.bcast_S1x900_S900x900_0_1 v20
  let v22 : IVec S900x900x1 32 := broadcastInDim S900x900x1 ![0, 1] hf.bcast_S900x900_S900x900x1_0_1 v15
  let v23 : IVec S900x900x1 32 := broadcastInDim S900x900x1 ![0, 1] hf.bcast_S900x900_S900x900x1_0_1 v21
  concatenate S900x900x2 2 [⟨S900x900x1, v22⟩, ⟨S900x900x1, v23⟩] hf.concatenates_d2

/-- The common tail: gather the matrix at the table, sum along the last axis from zero. -/
def tail {F : FTy → Type} [FloatOps F] (hf : TailFacts) (g : FVec F S16x900x900 .f32) : FVec F S16x900 .f32 :=
  Host.reduceAdd (Host.gather (gatherDims hf) g (indexTable hf)) (constant S_ .f32 0x00000000#32) hf.reducesTo_d2 hf.h_S_

end Cert.Gram

end
-- ==== Proof.KernelTail.lean ====
/-
  The kernel program's operations after its one region — the two counters, their sum shifted by 450, the remainder by
  900 written out, the index adjustments, the gather and the sum over the last axis — are, from whatever the buffers
  hold when the region is left, the common tail `Cert.Gram.tail` applied to the matrix the region wrote.
-/
import proofs.«147074_j2439541424700_1_alg».proof.Proof.Gen.KernelIdeal.Launch
import proofs.«147074_j2439541424700_1_alg».proof.Proof.Tail
import Idealize.ShloMosaic.Lib.StableHlo.Run

noncomputable section

namespace Cert.KernelIdeal.TailValue

open Cert.KernelIdeal Cert.KernelIdeal.Gen Idealize.ShloMosaic Idealize.ShloMosaic.TcCoe Idealize.SL.Sem Idealize.ShloMosaic.StableHlo

attribute [local irreducible] Host.gather Host.reduceAdd Host.remsi concatenate in
set_option maxRecDepth 16384 in
set_option maxHeartbeats 1000000 in
/-- The last buffer after the 53 operations is the tail of the matrix's buffer before them. -/
theorem tail_eq {F : FTy → Type} [FloatOps F] (W : Valuation τ sig (Elt F)) :
    after (List.flatten [hostOps1, hostOps1_1, hostOps1_2]) W (Proc.devRef .tc main_v26)
      = Cert.Gram.tail Cert.Gram.tailFacts (W (Proc.devRef .tc main_v0)) := by
  simp only [hostOps1, hostOps1_1, hostOps1_2, List.flatten_cons, List.flatten_nil, List.append_nil, List.cons_append, List.nil_append]
  after_results_simp
  rfl

end Cert.KernelIdeal.TailValue

end
-- ==== Proof.KernelRun.lean ====
/-
  The kernel program's run, read: every execution ends with the result buffer holding the common tail of the table of
  inner products of the two argument arrays, and the arguments as they were.  The region leaves the matrix array at that
  table (the blocks tile it); the operations after the region read it from there and are the common tail.
-/
import proofs.«147074_j2439541424700_1_alg».proof.Proof.Gen.KernelIdeal.Frame
import proofs.«147074_j2439541424700_1_alg».proof.Proof.KernelArray
import proofs.«147074_j2439541424700_1_alg».proof.Proof.KernelTail

noncomputable section

namespace Cert.KernelIdeal.RunValue

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The result buffer is unscoped and is no window's array. -/
theorem result_rest : main_v26 ∈ Pipeline.restRefs sig (cfgs 0).spec :=
  Pipeline.mem_restRefs_of main_v26 rfl (by decide)

/-- After the operations that follow the region the result buffer holds the tail of the table of inner products. -/
theorem result_eq (c : Dev nD) :
    Pipeline.afterTail₀ cfgs (dats m) 0 (V0 m) [hostOps1, hostOps1_1, hostOps1_2] c main_v26
      = Cert.Gram.tail Cert.Gram.tailFacts
          (Cert.Gram.gram (m ((c : Thread nD τ).loc main_arg0)) (m ((c : Thread nD τ).loc main_arg1))) := by
  unfold Pipeline.afterTail₀
  show StableHlo.after (List.flatten [hostOps1, hostOps1_1, hostOps1_2]) _ (Proc.devRef .tc main_v26) = _
  rw [Cert.KernelIdeal.TailValue.tail_eq]
  exact congrArg (Cert.Gram.tail Cert.Gram.tailFacts)
    ((Pipeline.withArrays_arr spec0 launch0.win.arr_inj c _ _ 2).trans (Cert.KernelIdeal.ArrayValue.final m c))

/-- The run: the result at the tail of the table of inner products, the arguments unchanged. -/
theorem run : θ_run defs (onTc (τ := τ) (main (F := Ideal))) ⟨m, fun _ => 0, ρ⟩ fun r => ∀ c : Dev nD,
      r.2.mem ((c : Thread nD τ).loc main_v26)
          = Cert.Gram.tail Cert.Gram.tailFacts
              (Cert.Gram.gram (m ((c : Thread nD τ).loc main_arg0)) (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
      ⟨((h c).2 main_v26 result_rest).trans (result_eq m c),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c)))⟩)
    (run_main m ρ)

end Cert.KernelIdeal.RunValue

end
-- ==== Proof.LibAfterAppend.lean ====
/-
  Running two straight lines of host operations one after the other is running their concatenation: the
  buffer contents after `l₁ ++ l₂` from `V` are the contents after `l₂` from the contents after `l₁` from `V`.
  It lets the value a long line leaves in a buffer be computed in pieces: the part of the line that produces an
  intermediate value, then the part that consumes it, each over an arbitrary starting valuation.
-/
import Idealize.ShloMosaic.Lib.StableHlo.Run

namespace Idealize.ShloMosaic.StableHlo

variable {τ : Topo} {sig : RefSig} {Val : EltTy → Type}

/-- The contents after a concatenation are the contents after the second line, started from the contents after
    the first. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- Every operation of a concatenation has a property when every operation of each part has it. -/
theorem forall_append {p : HloOp τ sig Val → Prop} {l₁ l₂ : List (HloOp τ sig Val)}
    (h₁ : l₁.Forall p) (h₂ : l₂.Forall p) : (l₁ ++ l₂).Forall p :=
  List.forall_iff_forall_mem.2 fun op hop =>
    (List.mem_append.1 hop).elim (List.forall_iff_forall_mem.1 h₁ op) (List.forall_iff_forall_mem.1 h₂ op)

end Idealize.ShloMosaic.StableHlo
-- ==== Proof.RefRun.lean ====
/-
  The reference program's run, read back as values.  Its @main is a straight line of 58 array operations (the
  outlined remainder function's 21 written at its call site over that call's own buffers): 5 build the matrix
  `g` from the two inputs (each input re-laid `[b, h, i, c] ↦ [b, i, (h, c)]`, then the batched product of one
  re-laid array with the transpose of the other), 53 turn `g` into the result.  Hence every execution ends
  with the result buffer holding the last 53 operations' function applied to the first 5's, and the inputs
  untouched.  The 53 are, operation for operation, `Cert.Gram.tail`; nothing is evaluated, the two terms are
  compared structurally.
-/
import proofs.«147074_j2439541424700_1_alg».proof.Proof.Gen.ReferenceIdeal
import proofs.«147074_j2439541424700_1_alg».proof.Proof.Tail
import proofs.«147074_j2439541424700_1_alg».proof.Proof.LibAfterAppend
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The 5 operations that build the matrix: both inputs transposed and flattened, then the batched product. -/
abbrev headOps : List (HloOp τ sig (Elt F)) :=
  [ StableHlo.unary main_arg0 main_v0 ((transpose S16x900x4x256 [0, 2, 1, 3] · transposes_S16x4x900x256_S16x900x4x256_0_2_1_3) : (⟨S16x4x900x256, .f32⟩ : BufTy).Contents (Elt F) → (⟨S16x900x4x256, .f32⟩ : BufTy).Contents (Elt F)),
    StableHlo.reshape main_v0 main_v1 rfl shapeCasts_S16x900x4x256_S16x900x1024,
    StableHlo.unary main_arg1 main_v2 ((transpose S16x900x4x256 [0, 2, 1, 3] · transposes_S16x4x900x256_S16x900x4x256_0_2_1_3) : (⟨S16x4x900x256, .f32⟩ : BufTy).Contents (Elt F) → (⟨S16x900x4x256, .f32⟩ : BufTy).Contents (Elt F)),
    StableHlo.reshape main_v2 main_v3 rfl shapeCasts_S16x900x4x256_S16x900x1024,
    StableHlo.binary main_v1 main_v3 main_v4 ((fun l r => Host.dotGeneral dot_S16x900x1024_S16x900x1024_S16x900x900_2_2_1_1_0_0 none l r) : (⟨S16x900x1024, .f32⟩ : BufTy).Contents (Elt F) → (⟨S16x900x1024, .f32⟩ : BufTy).Contents (Elt F) → (⟨S16x900x900, .f32⟩ : BufTy).Contents (Elt F)) ]

/-- The 53 operations that build the index table and read the matrix along it (the remainder function's 21 in
    their place, over its call's buffers). -/
abbrev tailOps : List (HloOp τ sig (Elt F)) :=
  [ StableHlo.nullary main_v5 (iotaInDim S900 32 0),
    StableHlo.unary main_v5 main_v6 (broadcastInDim S900x1 ![0] bcast_S900_S900x1_0 : (⟨S900, .i32⟩ : BufTy).Contents (Elt F) → (⟨S900x1, .i32⟩ : BufTy).Contents (Elt F)),
    StableHlo.nullary main_v7 (iotaInDim S900 32 0),
    StableHlo.unary main_v7 main_v8 (broadcastInDim S1x900 ![1] bcast_S900_S1x900_1 : (⟨S900, .i32⟩ : BufTy).Contents (Elt F) → (⟨S1x900, .i32⟩ : BufTy).Contents (Elt F)),
    StableHlo.unary main_v6 main_v9 (broadcastInDim S900x900 ![0, 1] bcast_S900x1_S900x900_0_1 : (⟨S900x1, .i32⟩ : BufTy).Contents (Elt F) → (⟨S900x900, .i32⟩ : BufTy).Contents (Elt F)),
    StableHlo.unary main_v8 main_v10 (broadcastInDim S900x900 ![0, 1] bcast_S1x900_S900x900_0_1 : (⟨S1x900, .i32⟩ : BufTy).Contents (Elt F) → (⟨S900x900, .i32⟩ : BufTy).Contents (Elt F)),
    StableHlo.binary main_v9 main_v10 main_v11 (addi : (⟨S900x900, .i32⟩ : BufTy).Contents (Elt F) → (⟨S900x900, .i32⟩ : BufTy).Contents (Elt F) → (⟨S900x900, .i32⟩ : BufTy).Contents (Elt F)),
    StableHlo.nullary main_c (constantI S_ 32 450#32),
    StableHlo.unary main_c main_v12 (broadcastInDim S900x900 ![] bcast_S_S900x900 : (⟨S_, .i32⟩ : BufTy).Contents (Elt F) → (⟨S900x900, .i32⟩ : BufTy).Contents (Elt F)),
    StableHlo.binary main_v11 main_v12 main_v13 (addi : (⟨S900x900, .i32⟩ : BufTy).Contents (Elt F) → (⟨S900x900, .i32⟩ : BufTy).Contents (Elt F) → (⟨S900x900, .i32⟩ : BufTy).Contents (Elt F)),
    StableHlo.nullary main_c_0 (constantI S_ 32 900#32),
    StableHlo.TRef.unary (.of main_c_0 : StableHlo.TRef sig ⟨S_, .i32⟩) (.of main_call0_v0 : StableHlo.TRef sig ⟨S_, .i32⟩) id,
    StableHlo.TRef.nullary (.of main_call0_c : StableHlo.TRef sig ⟨S_, .i32⟩) (constantI S_ 32 0#32),
    StableHlo.TRef.binary (.of main_call0_v0 : StableHlo.TRef sig ⟨S_, .i32⟩) (.of main_call0_c : StableHlo.TRef sig ⟨S_, .i32⟩) (.of main_call0_v1 : StableHlo.TRef sig ⟨S_, .i1⟩) (cmpi .eq),
    StableHlo.TRef.nullary (.of main_call0_c_0 : StableHlo.TRef sig ⟨S_, .i32⟩) (constantI S_ 32 1#32),
    StableHlo.TRef.ternary (.of main_call0_v1 : StableHlo.TRef sig ⟨S_, .i1⟩) (.of main_call0_c_0 : StableHlo.TRef sig ⟨S_, .i32⟩) (.of main_call0_v0 : StableHlo.TRef sig ⟨S_, .i32⟩) (.of main_call0_v2 : StableHlo.TRef sig ⟨S_, .i32⟩) select,
    StableHlo.TRef.unary main_call0_call0.v0 (.of main_call0_v3 : StableHlo.TRef sig ⟨S900x900, .i32⟩) (broadcastInDim S900x900 ![] bcast_S_S900x900),
    StableHlo.TRef.binary (.of main_v13 : StableHlo.TRef sig ⟨S900x900, .i32⟩) (.of main_call0_v3 : StableHlo.TRef sig ⟨S900x900, .i32⟩) (.of main_call0_v4 : StableHlo.TRef sig ⟨S900x900, .i32⟩) Host.remsi,
    StableHlo.TRef.nullary (.of main_call0_c_1 : StableHlo.TRef sig ⟨S_, .i32⟩) (constantI S_ 32 0#32),
    StableHlo.TRef.unary (.of main_call0_c_1 : StableHlo.TRef sig ⟨S_, .i32⟩) (.of main_call0_v5 : StableHlo.TRef sig ⟨S900x900, .i32⟩) (broadcastInDim S900x900 ![] bcast_S_S900x900),
    StableHlo.TRef.binary (.of main_call0_v4 : StableHlo.TRef sig ⟨S900x900, .i32⟩) (.of main_call0_v5 : StableHlo.TRef sig ⟨S900x900, .i32⟩) (.of main_call0_v6 : StableHlo.TRef sig ⟨S900x900, .i1⟩) (cmpi .ne),
    StableHlo.TRef.nullary (.of main_call0_c_2 : StableHlo.TRef sig ⟨S_, .i32⟩) (constantI S_ 32 0#32),
    StableHlo.TRef.unary (.of main_call0_c_2 : StableHlo.TRef sig ⟨S_, .i32⟩) (.of main_call0_v7 : StableHlo.TRef sig ⟨S900x900, .i32⟩) (broadcastInDim S900x900 ![] bcast_S_S900x900),
    StableHlo.TRef.binary (.of main_call0_v4 : StableHlo.TRef sig ⟨S900x900, .i32⟩) (.of main_call0_v7 : StableHlo.TRef sig ⟨S900x900, .i32⟩) (.of main_call0_v8 : StableHlo.TRef sig ⟨S900x900, .i1⟩) (cmpi .slt),
    StableHlo.TRef.nullary (.of main_call0_c_3 : StableHlo.TRef sig ⟨S_, .i32⟩) (constantI S_ 32 0#32),
    StableHlo.TRef.binary main_call0_call0.v0 (.of main_call0_c_3 : StableHlo.TRef sig ⟨S_, .i32⟩) (.of main_call0_v9 : StableHlo.TRef sig ⟨S_, .i1⟩) (cmpi .slt),
    StableHlo.TRef.unary (.of main_call0_v9 : StableHlo.TRef sig ⟨S_, .i1⟩) (.of main_call0_v10 : StableHlo.TRef sig ⟨S900x900, .i1⟩) (broadcastInDim S900x900 ![] bcast_S_S900x900),
    StableHlo.TRef.binary (.of main_call0_v8 : StableHlo.TRef sig ⟨S900x900, .i1⟩) (.of main_call0_v10 : StableHlo.TRef sig ⟨S900x900, .i1⟩) (.of main_call0_v11 : StableHlo.TRef sig ⟨S900x900, .i1⟩) (cmpi .ne),
    StableHlo.TRef.binary (.of main_call0_v11 : StableHlo.TRef sig ⟨S900x900, .i1⟩) (.of main_call0_v6 : StableHlo.TRef sig ⟨S900x900, .i1⟩) (.of main_call0_v12 : StableHlo.TRef sig ⟨S900x900, .i1⟩) andi,
    StableHlo.TRef.unary main_call0_call0.v0 (.of main_call0_v13 : StableHlo.TRef sig ⟨S900x900, .i32⟩) (broadcastInDim S900x900 ![] bcast_S_S900x900),
    StableHlo.TRef.binary (.of main_call0_v4 : StableHlo.TRef sig ⟨S900x900, .i32⟩) (.of main_call0_v13 : StableHlo.TRef sig ⟨S900x900, .i32⟩) (.of main_call0_v14 : StableHlo.TRef sig ⟨S900x900, .i32⟩) addi,
    StableHlo.TRef.ternary (.of main_call0_v12 : StableHlo.TRef sig ⟨S900x900, .i1⟩) (.of main_call0_v14 : StableHlo.TRef sig ⟨S900x900, .i32⟩) (.of main_call0_v4 : StableHlo.TRef sig ⟨S900x900, .i32⟩) (.of main_v14 : StableHlo.TRef sig ⟨S900x900, .i32⟩) select,
    StableHlo.nullary main_c_1 (constantI S_ 32 0#32),
    StableHlo.unary main_c_1 main_v15 (broadcastInDim S900x900 ![] bcast_S_S900x900 : (⟨S_, .i32⟩ : BufTy).Contents (Elt F) → (⟨S900x900, .i32⟩ : BufTy).Contents (Elt F)),
    StableHlo.binary main_v14 main_v15 main_v16 (cmpi .slt : (⟨S900x900, .i32⟩ : BufTy).Contents (Elt F) → (⟨S900x900, .i32⟩ : BufTy).Contents (Elt F) → (⟨S900x900, .i1⟩ : BufTy).Contents (Elt F)),
    StableHlo.nullary main_c_2 (constantI S_ 32 900#32),
    StableHlo.unary main_c_2 main_v17 (broadcastInDim S900x900 ![] bcast_S_S900x900 : (⟨S_, .i32⟩ : BufTy).Contents (Elt F) → (⟨S900x900, .i32⟩ : BufTy).Contents (Elt F)),
    StableHlo.binary main_v14 main_v17 main_v18 (addi : (⟨S900x900, .i32⟩ : BufTy).Contents (Elt F) → (⟨S900x900, .i32⟩ : BufTy).Contents (Elt F) → (⟨S900x900, .i32⟩ : BufTy).Contents (Elt F)),
    StableHlo.ternary main_v16 main_v18 main_v14 main_v19 (select : (⟨S900x900, .i1⟩ : BufTy).Contents (Elt F) → (⟨S900x900, .i32⟩ : BufTy).Contents (Elt F) → (⟨S900x900, .i32⟩ : BufTy).Contents (Elt F) → (⟨S900x900, .i32⟩ : BufTy).Contents (Elt F)),
    StableHlo.nullary main_c_3 (constantI S_ 32 0#32),
    StableHlo.unary main_c_3 main_v20 (broadcastInDim S1x900 ![] bcast_S_S1x900 : (⟨S_, .i32⟩ : BufTy).Contents (Elt F) → (⟨S1x900, .i32⟩ : BufTy).Contents (Elt F)),
    StableHlo.binary main_v8 main_v20 main_v21 (cmpi .slt : (⟨S1x900, .i32⟩ : BufTy).Contents (Elt F) → (⟨S1x900, .i32⟩ : BufTy).Contents (Elt F) → (⟨S1x900, .i1⟩ : BufTy).Contents (Elt F)),
    StableHlo.nullary main_c_4 (constantI S_ 32 900#32),
    StableHlo.unary main_c_4 main_v22 (broadcastInDim S1x900 ![] bcast_S_S1x900 : (⟨S_, .i32⟩ : BufTy).Contents (Elt F) → (⟨S1x900, .i32⟩ : BufTy).Contents (Elt F)),
    StableHlo.binary main_v8 main_v22 main_v23 (addi : (⟨S1x900, .i32⟩ : BufTy).Contents (Elt F) → (⟨S1x900, .i32⟩ : BufTy).Contents (Elt F) → (⟨S1x900, .i32⟩ : BufTy).Contents (Elt F)),
    StableHlo.ternary main_v21 main_v23 main_v8 main_v24 (select : (⟨S1x900, .i1⟩ : BufTy).Contents (Elt F) → (⟨S1x900, .i32⟩ : BufTy).Contents (Elt F) → (⟨S1x900, .i32⟩ : BufTy).Contents (Elt F) → (⟨S1x900, .i32⟩ : BufTy).Contents (Elt F)),
    StableHlo.unary main_v24 main_v25 (broadcastInDim S900x900 ![0, 1] bcast_S1x900_S900x900_0_1 : (⟨S1x900, .i32⟩ : BufTy).Contents (Elt F) → (⟨S900x900, .i32⟩ : BufTy).Contents (Elt F)),
    StableHlo.unary main_v19 main_v26 (broadcastInDim S900x900x1 ![0, 1] bcast_S900x900_S900x900x1_0_1 : (⟨S900x900, .i32⟩ : BufTy).Contents (Elt F) → (⟨S900x900x1, .i32⟩ : BufTy).Contents (Elt F)),
    StableHlo.unary main_v25 main_v27 (broadcastInDim S900x900x1 ![0, 1] bcast_S900x900_S900x900x1_0_1 : (⟨S900x900, .i32⟩ : BufTy).Contents (Elt F) → (⟨S900x900x1, .i32⟩ : BufTy).Contents (Elt F)),
    StableHlo.binary main_v26 main_v27 main_v28 ((fun a b => concatenate S900x900x2 2 [⟨S900x900x1, a⟩, ⟨S900x900x1, b⟩] concatenates_S900x900x1_S900x900x1_S900x900x2_d2) : (⟨S900x900x1, .i32⟩ : BufTy).Contents (Elt F) → (⟨S900x900x1, .i32⟩ : BufTy).Contents (Elt F) → (⟨S900x900x2, .i32⟩ : BufTy).Contents (Elt F)),
    StableHlo.binary main_v4 main_v28 main_v29 ((fun x i => Host.gather gather_S16x900x900_S900x900x2_S16x900x900_0_12_n_n_12_2_1611 x i) : (⟨S16x900x900, .f32⟩ : BufTy).Contents (Elt F) → (⟨S900x900x2, .i32⟩ : BufTy).Contents (Elt F) → (⟨S16x900x900, .f32⟩ : BufTy).Contents (Elt F)),
    StableHlo.nullary main_cst (constant S_ .f32 0x00000000#32),
    StableHlo.binary main_v29 main_cst main_v30 ((fun x v => Host.reduceAdd x v reducesTo_S16x900x900_S16x900_d2 h_S_) : (⟨S16x900x900, .f32⟩ : BufTy).Contents (Elt F) → (⟨S_, .f32⟩ : BufTy).Contents (Elt F) → (⟨S16x900, .f32⟩ : BufTy).Contents (Elt F)) ]

/-- @main's 58 operations, in order. -/
abbrev ops : List (HloOp τ sig (Elt F)) := headOps ++ tailOps

-- fifty-eight binds re-associated: the rewrite under the chain recurses once per statement
set_option maxRecDepth 2048 in
/-- @main is that straight line: the outlined functions unfolded at their calls and sequencing re-associated,
    both sides are one chain of the same steps. -/
theorem main_eq (c : Dev nD) : main (F := F) c = seq ops := by
  simp only [main, fn_remainder.body, fn_where.body, seq, List.cons_append, List.nil_append, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem headOps_sub : (headOps : List (HloOp τ sig (Elt F))).Forall fun op => op.bufs ⊆ tcRefs τ sig :=
  ⟨StableHlo.unary_bufs_sub .., StableHlo.reshape_bufs_sub .., StableHlo.unary_bufs_sub .., StableHlo.reshape_bufs_sub .., StableHlo.binary_bufs_sub ..⟩
theorem tailOps_sub : (tailOps : List (HloOp τ sig (Elt F))).Forall fun op => op.bufs ⊆ tcRefs τ sig :=
  ⟨StableHlo.nullary_bufs_sub .., StableHlo.unary_bufs_sub .., StableHlo.nullary_bufs_sub .., StableHlo.unary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.nullary_bufs_sub .., StableHlo.binary_bufs_sub .., StableHlo.nullary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.unary_bufs_sub .., StableHlo.binary_bufs_sub .., StableHlo.binary_bufs_sub .., StableHlo.nullary_bufs_sub .., StableHlo.binary_bufs_sub ..⟩
theorem ops_sub : (ops : List (HloOp τ sig (Elt F))).Forall fun op => op.bufs ⊆ tcRefs τ sig :=
  forall_append headOps_sub tailOps_sub

end Cert.ReferenceIdeal.RefValue

end
-- ==== Proof.RefAfter.lean ====
/-
  What the reference's straight line leaves in its buffers, as values.  The 53 last operations, run from any
  contents `W`, leave in the result buffer `Cert.Gram.tail` of what `W` holds for the matrix: the two terms are
  the same composition of the same operations (the shape relations are propositions, so whose witnesses they cite
  does not matter), compared structurally and never evaluated.  The 5 first operations leave in the matrix's
  buffer the batched product of the two re-laid inputs.  No operation writes an input.
-/
import proofs.«147074_j2439541424700_1_alg».proof.Proof.RefRun

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The matrix as the first 5 operations compute it from the two inputs. -/
def headValue (x y : FVec F S16x4x900x256 .f32) : FVec F S16x900x900 .f32 :=
  Host.dotGeneral dot_S16x900x1024_S16x900x1024_S16x900x900_2_2_1_1_0_0 none
    (shapeCast S16x900x1024 (transpose S16x900x4x256 [0, 2, 1, 3] x transposes_S16x4x900x256_S16x900x4x256_0_2_1_3)
      shapeCasts_S16x900x4x256_S16x900x1024)
    (shapeCast S16x900x1024 (transpose S16x900x4x256 [0, 2, 1, 3] y transposes_S16x4x900x256_S16x900x4x256_0_2_1_3)
      shapeCasts_S16x900x4x256_S16x900x1024)

/-- After the first 5 operations the matrix's buffer holds `headValue` of the inputs. -/
theorem head_eq (V : Valuation τ sig (Elt F)) :
    after headOps V (Proc.devRef .tc main_v4)
      = headValue (V (Proc.devRef .tc main_arg0)) (V (Proc.devRef .tc main_arg1)) := by
  after_results
  rfl

theorem head_arg0 (V : Valuation τ sig (Elt F)) :
    after headOps V (Proc.devRef .tc main_arg0) = V (Proc.devRef .tc main_arg0) := by
  after_results
theorem head_arg1 (V : Valuation τ sig (Elt F)) :
    after headOps V (Proc.devRef .tc main_arg1) = V (Proc.devRef .tc main_arg1) := by
  after_results

/-- The two index components put side by side: entry `(s, w, ·)` is the pair (row, column). -/
def pairTable (a b : IVec S900x900x1 32) : IVec S900x900x2 32 :=
  concatenate S900x900x2 2 [⟨S900x900x1, a⟩, ⟨S900x900x1, b⟩] concatenates_S900x900x1_S900x900x1_S900x900x2_d2

/-- The 53 last operations again, the pairing of the two index components named (`pairTable`), so that its two
    operands are plain arguments. -/
abbrev tailOps' : List (HloOp τ sig (Elt F)) :=
  [ StableHlo.nullary main_v5 (iotaInDim S900 32 0),
    StableHlo.unary main_v5 main_v6 (broadcastInDim S900x1 ![0] bcast_S900_S900x1_0 : (⟨S900, .i32⟩ : BufTy).Contents (Elt F) → (⟨S900x1, .i32⟩ : BufTy).Contents (Elt F)),
    StableHlo.nullary main_v7 (iotaInDim S900 32 0),
    StableHlo.unary main_v7 main_v8 (broadcastInDim S1x900 ![1] bcast_S900_S1x900_1 : (⟨S900, .i32⟩ : BufTy).Contents (Elt F) → (⟨S1x900, .i32⟩ : BufTy).Contents (Elt F)),
    StableHlo.unary main_v6 main_v9 (broadcastInDim S900x900 ![0, 1] bcast_S900x1_S900x900_0_1 : (⟨S900x1, .i32⟩ : BufTy).Contents (Elt F) → (⟨S900x900, .i32⟩ : BufTy).Contents (Elt F)),
    StableHlo.unary main_v8 main_v10 (broadcastInDim S900x900 ![0, 1] bcast_S1x900_S900x900_0_1 : (⟨S1x900, .i32⟩ : BufTy).Contents (Elt F) → (⟨S900x900, .i32⟩ : BufTy).Contents (Elt F)),
    StableHlo.binary main_v9 main_v10 main_v11 (addi : (⟨S900x900, .i32⟩ : BufTy).Contents (Elt F) → (⟨S900x900, .i32⟩ : BufTy).Contents (Elt F) → (⟨S900x900, .i32⟩ : BufTy).Contents (Elt F)),
    StableHlo.nullary main_c (constantI S_ 32 450#32),
    StableHlo.unary main_c main_v12 (broadcastInDim S900x900 ![] bcast_S_S900x900 : (⟨S_, .i32⟩ : BufTy).Contents (Elt F) → (⟨S900x900, .i32⟩ : BufTy).Contents (Elt F)),
    StableHlo.binary main_v11 main_v12 main_v13 (addi : (⟨S900x900, .i32⟩ : BufTy).Contents (Elt F) → (⟨S900x900, .i32⟩ : BufTy).Contents (Elt F) → (⟨S900x900, .i32⟩ : BufTy).Contents (Elt F)),
    StableHlo.nullary main_c_0 (constantI S_ 32 900#32),
    StableHlo.TRef.unary (.of main_c_0 : StableHlo.TRef sig ⟨S_, .i32⟩) (.of main_call0_v0 : StableHlo.TRef sig ⟨S_, .i32⟩) id,
    StableHlo.TRef.nullary (.of main_call0_c : StableHlo.TRef sig ⟨S_, .i32⟩) (constantI S_ 32 0#32),
    StableHlo.TRef.binary (.of main_call0_v0 : StableHlo.TRef sig ⟨S_, .i32⟩) (.of main_call0_c : StableHlo.TRef sig ⟨S_, .i32⟩) (.of main_call0_v1 : StableHlo.TRef sig ⟨S_, .i1⟩) (cmpi .eq),
    StableHlo.TRef.nullary (.of main_call0_c_0 : StableHlo.TRef sig ⟨S_, .i32⟩) (constantI S_ 32 1#32),
    StableHlo.TRef.ternary (.of main_call0_v1 : StableHlo.TRef sig ⟨S_, .i1⟩) (.of main_call0_c_0 : StableHlo.TRef sig ⟨S_, .i32⟩) (.of main_call0_v0 : StableHlo.TRef sig ⟨S_, .i32⟩) (.of main_call0_v2 : StableHlo.TRef sig ⟨S_, .i32⟩) select,
    StableHlo.TRef.unary main_call0_call0.v0 (.of main_call0_v3 : StableHlo.TRef sig ⟨S900x900, .i32⟩) (broadcastInDim S900x900 ![] bcast_S_S900x900),
    StableHlo.TRef.binary (.of main_v13 : StableHlo.TRef sig ⟨S900x900, .i32⟩) (.of main_call0_v3 : StableHlo.TRef sig ⟨S900x900, .i32⟩) (.of main_call0_v4 : StableHlo.TRef sig ⟨S900x900, .i32⟩) Host.remsi,
    StableHlo.TRef.nullary (.of main_call0_c_1 : StableHlo.TRef sig ⟨S_, .i32⟩) (constantI S_ 32 0#32),
    StableHlo.TRef.unary (.of main_call0_c_1 : StableHlo.TRef sig ⟨S_, .i32⟩) (.of main_call0_v5 : StableHlo.TRef sig ⟨S900x900, .i32⟩) (broadcastInDim S900x900 ![] bcast_S_S900x900),
    StableHlo.TRef.binary (.of main_call0_v4 : StableHlo.TRef sig ⟨S900x900, .i32⟩) (.of main_call0_v5 : StableHlo.TRef sig ⟨S900x900, .i32⟩) (.of main_call0_v6 : StableHlo.TRef sig ⟨S900x900, .i1⟩) (cmpi .ne),
    StableHlo.TRef.nullary (.of main_call0_c_2 : StableHlo.TRef sig ⟨S_, .i32⟩) (constantI S_ 32 0#32),
    StableHlo.TRef.unary (.of main_call0_c_2 : StableHlo.TRef sig ⟨S_, .i32⟩) (.of main_call0_v7 : StableHlo.TRef sig ⟨S900x900, .i32⟩) (broadcastInDim S900x900 ![] bcast_S_S900x900),
    StableHlo.TRef.binary (.of main_call0_v4 : StableHlo.TRef sig ⟨S900x900, .i32⟩) (.of main_call0_v7 : StableHlo.TRef sig ⟨S900x900, .i32⟩) (.of main_call0_v8 : StableHlo.TRef sig ⟨S900x900, .i1⟩) (cmpi .slt),
    StableHlo.TRef.nullary (.of main_call0_c_3 : StableHlo.TRef sig ⟨S_, .i32⟩) (constantI S_ 32 0#32),
    StableHlo.TRef.binary main_call0_call0.v0 (.of main_call0_c_3 : StableHlo.TRef sig ⟨S_, .i32⟩) (.of main_call0_v9 : StableHlo.TRef sig ⟨S_, .i1⟩) (cmpi .slt),
    StableHlo.TRef.unary (.of main_call0_v9 : StableHlo.TRef sig ⟨S_, .i1⟩) (.of main_call0_v10 : StableHlo.TRef sig ⟨S900x900, .i1⟩) (broadcastInDim S900x900 ![] bcast_S_S900x900),
    StableHlo.TRef.binary (.of main_call0_v8 : StableHlo.TRef sig ⟨S900x900, .i1⟩) (.of main_call0_v10 : StableHlo.TRef sig ⟨S900x900, .i1⟩) (.of main_call0_v11 : StableHlo.TRef sig ⟨S900x900, .i1⟩) (cmpi .ne),
    StableHlo.TRef.binary (.of main_call0_v11 : StableHlo.TRef sig ⟨S900x900, .i1⟩) (.of main_call0_v6 : StableHlo.TRef sig ⟨S900x900, .i1⟩) (.of main_call0_v12 : StableHlo.TRef sig ⟨S900x900, .i1⟩) andi,
    StableHlo.TRef.unary main_call0_call0.v0 (.of main_call0_v13 : StableHlo.TRef sig ⟨S900x900, .i32⟩) (broadcastInDim S900x900 ![] bcast_S_S900x900),
    StableHlo.TRef.binary (.of main_call0_v4 : StableHlo.TRef sig ⟨S900x900, .i32⟩) (.of main_call0_v13 : StableHlo.TRef sig ⟨S900x900, .i32⟩) (.of main_call0_v14 : StableHlo.TRef sig ⟨S900x900, .i32⟩) addi,
    StableHlo.TRef.ternary (.of main_call0_v12 : StableHlo.TRef sig ⟨S900x900, .i1⟩) (.of main_call0_v14 : StableHlo.TRef sig ⟨S900x900, .i32⟩) (.of main_call0_v4 : StableHlo.TRef sig ⟨S900x900, .i32⟩) (.of main_v14 : StableHlo.TRef sig ⟨S900x900, .i32⟩) select,
    StableHlo.nullary main_c_1 (constantI S_ 32 0#32),
    StableHlo.unary main_c_1 main_v15 (broadcastInDim S900x900 ![] bcast_S_S900x900 : (⟨S_, .i32⟩ : BufTy).Contents (Elt F) → (⟨S900x900, .i32⟩ : BufTy).Contents (Elt F)),
    StableHlo.binary main_v14 main_v15 main_v16 (cmpi .slt : (⟨S900x900, .i32⟩ : BufTy).Contents (Elt F) → (⟨S900x900, .i32⟩ : BufTy).Contents (Elt F) → (⟨S900x900, .i1⟩ : BufTy).Contents (Elt F)),
    StableHlo.nullary main_c_2 (constantI S_ 32 900#32),
    StableHlo.unary main_c_2 main_v17 (broadcastInDim S900x900 ![] bcast_S_S900x900 : (⟨S_, .i32⟩ : BufTy).Contents (Elt F) → (⟨S900x900, .i32⟩ : BufTy).Contents (Elt F)),
    StableHlo.binary main_v14 main_v17 main_v18 (addi : (⟨S900x900, .i32⟩ : BufTy).Contents (Elt F) → (⟨S900x900, .i32⟩ : BufTy).Contents (Elt F) → (⟨S900x900, .i32⟩ : BufTy).Contents (Elt F)),
    StableHlo.ternary main_v16 main_v18 main_v14 main_v19 (select : (⟨S900x900, .i1⟩ : BufTy).Contents (Elt F) → (⟨S900x900, .i32⟩ : BufTy).Contents (Elt F) → (⟨S900x900, .i32⟩ : BufTy).Contents (Elt F) → (⟨S900x900, .i32⟩ : BufTy).Contents (Elt F)),
    StableHlo.nullary main_c_3 (constantI S_ 32 0#32),
    StableHlo.unary main_c_3 main_v20 (broadcastInDim S1x900 ![] bcast_S_S1x900 : (⟨S_, .i32⟩ : BufTy).Contents (Elt F) → (⟨S1x900, .i32⟩ : BufTy).Contents (Elt F)),
    StableHlo.binary main_v8 main_v20 main_v21 (cmpi .slt : (⟨S1x900, .i32⟩ : BufTy).Contents (Elt F) → (⟨S1x900, .i32⟩ : BufTy).Contents (Elt F) → (⟨S1x900, .i1⟩ : BufTy).Contents (Elt F)),
    StableHlo.nullary main_c_4 (constantI S_ 32 900#32),
    StableHlo.unary main_c_4 main_v22 (broadcastInDim S1x900 ![] bcast_S_S1x900 : (⟨S_, .i32⟩ : BufTy).Contents (Elt F) → (⟨S1x900, .i32⟩ : BufTy).Contents (Elt F)),
    StableHlo.binary main_v8 main_v22 main_v23 (addi : (⟨S1x900, .i32⟩ : BufTy).Contents (Elt F) → (⟨S1x900, .i32⟩ : BufTy).Contents (Elt F) → (⟨S1x900, .i32⟩ : BufTy).Contents (Elt F)),
    StableHlo.ternary main_v21 main_v23 main_v8 main_v24 (select : (⟨S1x900, .i1⟩ : BufTy).Contents (Elt F) → (⟨S1x900, .i32⟩ : BufTy).Contents (Elt F) → (⟨S1x900, .i32⟩ : BufTy).Contents (Elt F) → (⟨S1x900, .i32⟩ : BufTy).Contents (Elt F)),
    StableHlo.unary main_v24 main_v25 (broadcastInDim S900x900 ![0, 1] bcast_S1x900_S900x900_0_1 : (⟨S1x900, .i32⟩ : BufTy).Contents (Elt F) → (⟨S900x900, .i32⟩ : BufTy).Contents (Elt F)),
    StableHlo.unary main_v19 main_v26 (broadcastInDim S900x900x1 ![0, 1] bcast_S900x900_S900x900x1_0_1 : (⟨S900x900, .i32⟩ : BufTy).Contents (Elt F) → (⟨S900x900x1, .i32⟩ : BufTy).Contents (Elt F)),
    StableHlo.unary main_v25 main_v27 (broadcastInDim S900x900x1 ![0, 1] bcast_S900x900_S900x900x1_0_1 : (⟨S900x900, .i32⟩ : BufTy).Contents (Elt F) → (⟨S900x900x1, .i32⟩ : BufTy).Contents (Elt F)),
    StableHlo.binary main_v26 main_v27 main_v28 (pairTable : (⟨S900x900x1, .i32⟩ : BufTy).Contents (Elt F) → (⟨S900x900x1, .i32⟩ : BufTy).Contents (Elt F) → (⟨S900x900x2, .i32⟩ : BufTy).Contents (Elt F)),
    StableHlo.binary main_v4 main_v28 main_v29 ((fun x i => Host.gather gather_S16x900x900_S900x900x2_S16x900x900_0_12_n_n_12_2_1611 x i) : (⟨S16x900x900, .f32⟩ : BufTy).Contents (Elt F) → (⟨S900x900x2, .i32⟩ : BufTy).Contents (Elt F) → (⟨S16x900x900, .f32⟩ : BufTy).Contents (Elt F)),
    StableHlo.nullary main_cst (constant S_ .f32 0x00000000#32),
    StableHlo.binary main_v29 main_cst main_v30 ((fun x v => Host.reduceAdd x v reducesTo_S16x900x900_S16x900_d2 h_S_) : (⟨S16x900x900, .f32⟩ : BufTy).Contents (Elt F) → (⟨S_, .f32⟩ : BufTy).Contents (Elt F) → (⟨S16x900, .f32⟩ : BufTy).Contents (Elt F)) ]

theorem tailOps_eq : (tailOps : List (HloOp τ sig (Elt F))) = tailOps' := rfl

attribute [local irreducible] Host.gather Host.reduceAdd Host.remsi concatenate broadcastInDim iotaInDim in
set_option maxRecDepth 8192 in
/-- After the last 53 operations, run from any contents `W`, the result buffer holds `Cert.Gram.tail` of the matrix
    `W` holds: the fold unrolled, each operation's result read at its own buffer, what is left is the same
    composition of the same operations on both sides.  The operations that search or fold over an array's elements
    are kept closed meanwhile: the comparison never needs to look inside them. -/
theorem tail_eq (W : Valuation τ sig (Elt F)) :
    after tailOps W (Proc.devRef .tc main_v30)
      = Cert.Gram.tail Cert.Gram.tailFacts (W (Proc.devRef .tc main_v4)) := by
  rw [tailOps_eq]
  after_results_simp
  -- the outlined function's operations move their values between a buffer's own type and the value's: the identity
  simp only [TRef.toBuf, TRef.ofBuf, cast_eq]
  rfl

theorem tail_arg0 (W : Valuation τ sig (Elt F)) :
    after tailOps W (Proc.devRef .tc main_arg0) = W (Proc.devRef .tc main_arg0) := by
  after_results_simp
theorem tail_arg1 (W : Valuation τ sig (Elt F)) :
    after tailOps W (Proc.devRef .tc main_arg1) = W (Proc.devRef .tc main_arg1) := by
  after_results_simp

/-- The whole line: the result is the tail of the head's matrix. -/
theorem ops_result (V : Valuation τ sig (Elt F)) :
    after ops V (Proc.devRef .tc main_v30)
      = Cert.Gram.tail Cert.Gram.tailFacts (headValue (V (Proc.devRef .tc main_arg0)) (V (Proc.devRef .tc main_arg1))) := by
  rw [show (ops : List (HloOp τ sig (Elt F))) = headOps ++ tailOps from rfl, after_append, tail_eq, head_eq]
theorem ops_arg0 (V : Valuation τ sig (Elt F)) :
    after ops V (Proc.devRef .tc main_arg0) = V (Proc.devRef .tc main_arg0) := by
  rw [show (ops : List (HloOp τ sig (Elt F))) = headOps ++ tailOps from rfl, after_append, tail_arg0, head_arg0]
theorem ops_arg1 (V : Valuation τ sig (Elt F)) :
    after ops V (Proc.devRef .tc main_arg1) = V (Proc.devRef .tc main_arg1) := by
  rw [show (ops : List (HloOp τ sig (Elt F))) = headOps ++ tailOps from rfl, after_append, tail_arg1, head_arg1]

end Cert.ReferenceIdeal.RefValue

end
-- ==== Proof.LibStackNT.lean ====
/-
  The batched product of a stack of matrices with the TRANSPOSES of another stack's, `A · Bᵀ` member by member:
  over `A : [G, m, k]` and `B : [G, n, k]`, the batch axis first and the LAST axis of both contracted, read at an
  index it is the inner product of row `a` of `A[g]` with row `b` of `B[g]`,

      (A · Bᵀ)[g, a, b]  =  Σ_{c < k}  A[g, a, c] · B[g, b, c].

  At the ideal values: the host's product is the plain sum over the contraction index, and that index (a point of a
  shape with one axis of extent `k`) is re-indexed by its one coordinate.  Then two layout lemmas for the arrays such
  a product is usually fed: a `[G, m, h, c]` array flattened to `[G, m, h·c]` reads at `(g, a, d)` the entry
  `(g, a, d / c, d % c)`, and a `[G, h, m, c]` array with its two middle axes exchanged reads at `(g, a, h, c)` the
  entry `(g, h, a, c)`.
-/
import Idealize.ShloMosaic.PureOps.Ideal
import Idealize.ShloMosaic.PureOps.Ideal.Laws
import Idealize.ShloMosaic.Lib.ValueIdx
import Idealize.ShloMosaic.Lib.Pipeline.Value

open scoped BigOperators

namespace Idealize.ShloMosaic.StackNT

open Idealize.ShloMosaic Idealize.ShloMosaic.ValueIdx

variable {G m n k : Nat}

/-- `dot_general` over `[G, m, k]` and `[G, n, k]` with batch axes 0 and 0 and contracting axes 2 and 2, read at an
    index, is the sum over the contracted coordinate of the products of the two rows' entries.  At the ideal values.
    `w` is the record's well-formedness, which a program states. -/
theorem dotGeneral_stackNT_apply {φ₁ φ₂ : FTy}
    (w : DotDims.WF ⟨3, ![G, m, k]⟩ ⟨3, ![G, n, k]⟩ ⟨3, ![G, m, n]⟩ [2] [2] [1] [1] [0] [0])
    (prec : Option ContractPrecision) (A : FVec Ideal ⟨3, ![G, m, k]⟩ φ₁) (B : FVec Ideal ⟨3, ![G, n, k]⟩ φ₂)
    (g : Fin G) (a : Fin m) (b : Fin n) :
    Host.dotGeneral (⟨[2], [2], [1], [1], [0], [0], w⟩ : DotDims _ _ _) prec A B (ix3 g a b)
      = ∑ c : Fin k, A (ix3 g a c) * B (ix3 g b c) := by
  show FloatOps.dotGeneral _ prec _ A B (ix3 g a b) = _
  rw [Ideal.dotGeneral_apply,
    ← Equiv.sum_comp (contrEquiv1 (⟨[2], [2], [1], [1], [0], [0], w⟩ : DotDims _ _ _) k rfl rfl).symm]
  refine Finset.sum_congr rfl fun c _ => ?_
  have c3 := contrEquiv1_symm_val
    (⟨[2], [2], [1], [1], [0], [0], w⟩ : DotDims ⟨3, ![G, m, k]⟩ ⟨3, ![G, n, k]⟩ ⟨3, ![G, m, n]⟩) k rfl rfl c
  have l3 : (⟨[2], [2], [1], [1], [0], [0], w⟩ : DotDims ⟨3, ![G, m, k]⟩ ⟨3, ![G, n, k]⟩ ⟨3, ![G, m, n]⟩).lhsIdx (ix3 g a b)
      ((contrEquiv1 _ k rfl rfl).symm c) = ix3 g a c := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c3
  have r3 : (⟨[2], [2], [1], [1], [0], [0], w⟩ : DotDims ⟨3, ![G, m, k]⟩ ⟨3, ![G, n, k]⟩ ⟨3, ![G, m, n]⟩).rhsIdx (ix3 g a b)
      ((contrEquiv1 _ k rfl rfl).symm c) = ix3 g b c := by
    funext ax; apply Fin.ext
    match ax with
    | ⟨0, _⟩ => simp [DotDims.rhsIdx]; rfl
    | ⟨1, _⟩ => simp [DotDims.rhsIdx]; rfl
    | ⟨2, _⟩ => simp [DotDims.rhsIdx]; exact c3
  rw [l3, r3]

variable {α : Type}

/-- A `[G, m, h, c]` array flattened to `[G, m, h·c]` reads, at `(g, a, d)`, the entry `(g, a, d / c, d % c)`. -/
theorem shapeCast_flatten_last_apply {h c : Nat} (hc : 0 < c) (x : (⟨4, ![G, m, h, c]⟩ : Shape).Idx → α)
    (hs : (⟨4, ![G, m, h, c]⟩ : Shape).ShapeCasts ⟨3, ![G, m, h * c]⟩) (g : Fin G) (a : Fin m) (d : Fin (h * c)) :
    shapeCast ⟨3, ![G, m, h * c]⟩ x hs (ix3 g a d)
      = x (ix4 g a ⟨d.val / c, Nat.div_lt_of_lt_mul (Nat.mul_comm h c ▸ d.isLt)⟩ ⟨d.val % c, Nat.mod_lt _ hc⟩) :=
  shapeCast_apply x hs _ _ (by
    rw [Shape.rowMajor_val_four, Shape.rowMajor_val_three]
    show ((g.val * m + a.val) * h + d.val / c) * c + d.val % c = (g.val * m + a.val) * (h * c) + d.val
    have := Nat.div_add_mod d.val c
    rw [Nat.add_mul, Nat.mul_assoc, Nat.add_assoc, Nat.mul_comm (d.val / c) c, this])

/-- A `[G, h, m, c]` array with its two middle axes exchanged (permutation `[0, 2, 1, 3]`) reads, at `(g, a, h, c)`,
    the entry `(g, h, a, c)`. -/
theorem transpose_ix4_0213_apply {h c : Nat} (x : (⟨4, ![G, h, m, c]⟩ : Shape).Idx → α)
    (ht : (⟨4, ![G, h, m, c]⟩ : Shape).Transposes [0, 2, 1, 3] ⟨4, ![G, m, h, c]⟩)
    (g : Fin G) (a : Fin m) (i : Fin h) (j : Fin c) :
    transpose ⟨4, ![G, m, h, c]⟩ [0, 2, 1, 3] x ht (ix4 g a i j) = x (ix4 g i a j) :=
  transpose_apply _ x ht _ _ fun q => match q with | ⟨0, _⟩ => rfl | ⟨1, _⟩ => rfl | ⟨2, _⟩ => rfl | ⟨3, _⟩ => rfl

/-! ## The two together: rows of `h · c` components kept as `h` groups of `c` -/

/-- A sum over `h · c` consecutive indices is the double sum over the pairs `(i, j)`, the index being `j + c · i`. -/
theorem sum_fin_mul {M : Type*} [AddCommMonoid M] (h c : ℕ) (f : Fin (h * c) → M) :
    ∑ q, f q = ∑ i : Fin h, ∑ j : Fin c, f (finProdFinEquiv (i, j)) := by
  rw [← Equiv.sum_comp finProdFinEquiv f, Fintype.sum_prod_type]

/-- The flat component `j + c · i` has quotient `i` by `c`. -/
theorem finProd_div {h c : ℕ} (i : Fin h) (j : Fin c) : ((finProdFinEquiv (i, j) : Fin (h * c)) : ℕ) / c = i := by
  have hc : 0 < c := Nat.lt_of_le_of_lt (Nat.zero_le _) j.isLt
  show (j.val + c * i.val) / c = i.val
  rw [Nat.add_mul_div_left _ _ hc, Nat.div_eq_of_lt j.isLt, Nat.zero_add]
/-- The flat component `j + c · i` has remainder `j` by `c`. -/
theorem finProd_mod {h c : ℕ} (i : Fin h) (j : Fin c) : ((finProdFinEquiv (i, j) : Fin (h * c)) : ℕ) % c = j := by
  show (j.val + c * i.val) % c = j.val
  rw [Nat.add_mul_mod_self_left, Nat.mod_eq_of_lt j.isLt]

/-- Two arrays `x : [G, h, m, c]` and `y : [G, h, n, c]`, each re-laid to `[G, ·, h · c]` (the two middle axes exchanged,
    then the last two flattened), multiplied as `A · Bᵀ` member by member: the result at `(g, a, b)` is the inner
    product over the pairs `(i, j)`,  `Σ_{i < h} Σ_{j < c} x[g, i, a, j] · y[g, i, b, j]`.  At the ideal values: a
    finite sum re-indexed along the bijection `(i, j) ↦ j + c · i`, which needs only that addition is commutative
    and associative. -/
theorem dotGeneral_flatRows_apply {h c : ℕ} {φ₁ φ₂ : FTy}
    (w : DotDims.WF ⟨3, ![G, m, h * c]⟩ ⟨3, ![G, n, h * c]⟩ ⟨3, ![G, m, n]⟩ [2] [2] [1] [1] [0] [0])
    (prec : Option ContractPrecision) (x : FVec Ideal ⟨4, ![G, h, m, c]⟩ φ₁) (y : FVec Ideal ⟨4, ![G, h, n, c]⟩ φ₂)
    (tx : (⟨4, ![G, h, m, c]⟩ : Shape).Transposes [0, 2, 1, 3] ⟨4, ![G, m, h, c]⟩)
    (ty : (⟨4, ![G, h, n, c]⟩ : Shape).Transposes [0, 2, 1, 3] ⟨4, ![G, n, h, c]⟩)
    (sx : (⟨4, ![G, m, h, c]⟩ : Shape).ShapeCasts ⟨3, ![G, m, h * c]⟩)
    (sy : (⟨4, ![G, n, h, c]⟩ : Shape).ShapeCasts ⟨3, ![G, n, h * c]⟩)
    (g : Fin G) (a : Fin m) (b : Fin n) :
    Host.dotGeneral (⟨[2], [2], [1], [1], [0], [0], w⟩ : DotDims _ _ _) prec
        (shapeCast ⟨3, ![G, m, h * c]⟩ (transpose ⟨4, ![G, m, h, c]⟩ [0, 2, 1, 3] x tx) sx : FVec Ideal _ φ₁)
        (shapeCast ⟨3, ![G, n, h * c]⟩ (transpose ⟨4, ![G, n, h, c]⟩ [0, 2, 1, 3] y ty) sy : FVec Ideal _ φ₂) (ix3 g a b)
      = ∑ i : Fin h, ∑ j : Fin c, x (ix4 g i a j) * y (ix4 g i b j) := by
  rw [dotGeneral_stackNT_apply, sum_fin_mul]
  refine Finset.sum_congr rfl fun i _ => Finset.sum_congr rfl fun j _ => ?_
  have hc : 0 < c := Nat.lt_of_le_of_lt (Nat.zero_le _) j.isLt
  rw [shapeCast_flatten_last_apply hc, shapeCast_flatten_last_apply hc, transpose_ix4_0213_apply, transpose_ix4_0213_apply]
  simp only [finProd_div, finProd_mod, Fin.eta]

end Idealize.ShloMosaic.StackNT
-- ==== Proof.RefValue.lean ====
/-
  The reference's result as a function of its inputs.  Its first 5 operations re-lay each input
  `[b, h, i, c] ↦ [b, i, 256·h + c]` and multiply one re-laid array by the transpose of the other, batch by batch:
  entry `(b, i, j)` is `Σ_{d < 1024} x[b, d / 256, i, d % 256] · y[b, d / 256, j, d % 256]`, which re-indexed along
  `(h, c) ↦ 256·h + c` is the table of inner products `Cert.Gram.gram x y`.  The last 53 operations are
  `Cert.Gram.tail`.  So every execution of the reference ends with `tail (gram x y)` in the result buffer and the
  inputs unchanged.
-/
import proofs.«147074_j2439541424700_1_alg».proof.Proof.RefAfter
import proofs.«147074_j2439541424700_1_alg».proof.Proof.LibStackNT
import proofs.«147074_j2439541424700_1_alg».proof.Proof.Spec

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx Idealize.ShloMosaic.StackNT

/-- The matrix the first 5 operations compute is the table of inner products over the pairs `(h, c)`. -/
theorem headValue_eq_gram (x y : FVec Ideal S16x4x900x256 .f32) :
    headValue (F := Ideal) x y = Cert.Gram.gram x y := by
  funext q
  obtain ⟨b, i, j, rfl⟩ : ∃ (b : Fin 16) (i j : Fin 900), q = ix3 b i j := ⟨_, _, _, eq_ix3 _⟩
  rw [Cert.Gram.gram_apply]
  exact dotGeneral_flatRows_apply (G := 16) (m := 900) (n := 900) (h := 4) (c := 256)
    dot_S16x900x1024_S16x900x1024_S16x900x900_2_2_1_1_0_0_wf none x y
    transposes_S16x4x900x256_S16x900x4x256_0_2_1_3 transposes_S16x4x900x256_S16x900x4x256_0_2_1_3
    shapeCasts_S16x900x4x256_S16x900x1024 shapeCasts_S16x900x4x256_S16x900x1024 b i j

/-- On every device, from any memory with zero counters: every weakly fair execution of the reference's @main
    terminates with the result buffer at the tail of the inputs' table of inner products, the inputs unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v30)
          = Cert.Gram.tail Cert.Gram.tailFacts (Cert.Gram.gram (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v30).trans ((ops_result _).trans (congrArg _ (headValue_eq_gram _ _))),
      (h c main_arg0).trans (ops_arg0 _),
      (h c main_arg1).trans (ops_arg1 _)⟩)
    (run_seq scopedRefs_eq scopedSems_eq defs main (fun _ => ops) main_eq (fun _ => ops_sub) m ρ)

end Cert.ReferenceIdeal.RefValue

end
-- ==== Proof.lean ====
/-
  The two programs compute, for every batch entry `b` and shift `s`,

      out[b, s]  =  Σ_{w < 900}  gram[b, (s + w + 450) mod 900, w],
      gram[b, i, j]  =  Σ_{h < 4} Σ_{c < 256}  x[b, h, i, c] · y[b, h, j, c].

  The kernel program forms `gram[b]` one batch entry per grid point, as four `900 × 256` by `256 × 900` products (one
  per `h`) added one after the other to a zero matrix; the narrowing of the factors to a shorter float format is the
  identity on exact values.  The reference moves `h` next to `c`, flattens the pair to `d = 256·h + c`, and forms one
  product over `d < 1024`.  Re-indexing the finite sum over `d` along `(h, c) ↦ 256·h + c` identifies the two; it uses
  only that addition of extended reals is commutative and associative with `0` neutral, so nothing is assumed of the
  inputs.  The steps from `gram` to `out` (an integer table of positions, a gather, a sum) are spelt identically in
  both programs and are carried as one function `Cert.Gram.tail`, never opened.

  Frames: the two kernel programs' by their generated frame runs; the reference's is its run with the result dropped.
  The idealization rewrote no operation, so nothing is to be preserved beyond the program's own text.
-/
import proofs.«147074_j2439541424700_1_alg».proof.Defs
import proofs.«147074_j2439541424700_1_alg».proof.Proof.Gen.Kernel
import proofs.«147074_j2439541424700_1_alg».proof.Proof.Gen.Kernel.Frame
import proofs.«147074_j2439541424700_1_alg».proof.Proof.Gen.KernelIdeal
import proofs.«147074_j2439541424700_1_alg».proof.Proof.Gen.KernelIdeal.Frame
import proofs.«147074_j2439541424700_1_alg».proof.Proof.Gen.ReferenceIdeal
import proofs.«147074_j2439541424700_1_alg».proof.Proof.Gen.Pre_finite_inputs
import proofs.«147074_j2439541424700_1_alg».proof.Proof.KernelRun
import proofs.«147074_j2439541424700_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference writes neither argument: its run, with the result dropped. -/
theorem frame_referenceIdeal : Cert.frame_ReferenceIdeal := fun m ρ _ =>
  (θ_run Cert.ReferenceIdeal.defs _ _).mono (fun _ h c => (h c).2) (Cert.ReferenceIdeal.RefValue.run m ρ)

theorem preserves : Cert.preserves_Kernel_KernelIdeal := trivial

/-- Both programs end with the common tail of the table of inner products of their arguments; the arguments agree. -/
theorem algebraic : Cert.algebraic_KernelIdeal_ReferenceIdeal := by
  intro m ρ m' ρ' _ hagree
  refine ⟨fun c => Cert.Gram.tail Cert.Gram.tailFacts
      (Cert.Gram.gram (m ((c : Thread Cert.KernelIdeal.nD Cert.KernelIdeal.τ).loc Cert.KernelIdeal.main_arg0))
        (m ((c : Thread Cert.KernelIdeal.nD Cert.KernelIdeal.τ).loc Cert.KernelIdeal.main_arg1))),
    Cert.KernelIdeal.RunValue.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
